-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S16384x1024 : Shape := ⟨2, ![16384, 1024]⟩
abbrev S16384x192 : Shape := ⟨2, ![16384, 192]⟩
abbrev S512x1024 : Shape := ⟨2, ![512, 1024]⟩
abbrev S512x192 : Shape := ⟨2, ![512, 192]⟩
abbrev S8x2048x192 : Shape := ⟨3, ![8, 2048, 192]⟩
abbrev S8x2048x64 : Shape := ⟨3, ![8, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S16384x1024, .f32⟩
  | .hbm, ⟨6, _⟩ => ⟨S16384x192, .bf16⟩
  | .hbm, ⟨7, _⟩ => ⟨S8x2048x192, .bf16⟩
  | .hbm, ⟨8, _⟩ => ⟨S8x2048x64, .bf16⟩
  | .hbm, ⟨9, _⟩ => ⟨S8x2048x64, .bf16⟩
  | .hbm, ⟨10, _⟩ => ⟨S8x2048x64, .bf16⟩
  | .hbm, ⟨11, _⟩ => ⟨S8x2048x64, .f32⟩
  | .local _ .vmem, ⟨0, _⟩ => ⟨S512x1024, .f32⟩
  | .local _ .vmem, ⟨1, _⟩ => ⟨S512x1024, .f32⟩
  | .local _ .vmem, ⟨2, _⟩ => ⟨S1024x192, .f32⟩
  | .local _ .vmem, ⟨3, _⟩ => ⟨S512x192, .bf16⟩
  | .local _ .vmem, ⟨4, _⟩ => ⟨S512x192, .bf16⟩
  | .local _ .vmem, ⟨5, _⟩ => ⟨S1x512x64, .bf16⟩
  | .local _ .vmem, ⟨6, _⟩ => ⟨S1x512x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x512x64, .f32⟩
  | .local _ .vmem, ⟨12, _⟩ => ⟨S1x512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x64_S1024x64_S1024x64_S1024x192_d1 : Shape.Concatenates [S1024x64, S1024x64, S1024x64] S1024x192 1
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S512x192_S512x192_0_0 : ∀ a, (![0, 0] : Fin 2 → Nat) a + S512x192.size a ≤ S512x192.size a
  h_S512x192 : 0 < S512x192.numel
  packedbf16_S512x192_S512x192_0_0 : (Rect.unit (s := S512x192) ![0, 0] S512x192.size inb_S512x192_S512x192_0_0).PackedRows (EltTy.packing .bf16)
  shapeCasts_S16384x192_S8x2048x192 : S16384x192.ShapeCasts S8x2048x192
  slices_S8x2048x192_S8x2048x64_0_0_0 : S8x2048x192.Slices ![0, 0, 0] S8x2048x64
  slices_S8x2048x192_S8x2048x64_0_0_64 : S8x2048x192.Slices ![0, 0, 64] S8x2048x64
  slices_S8x2048x192_S8x2048x64_0_0_128 : S8x2048x192.Slices ![0, 0, 128] S8x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S512x1024_S1024x192_S512x192_1_0_0_1_n_n_wf : DotDims.WF S512x1024 S1024x192 S512x192 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x192.size a ≤ S16384x192.size a
  hwx0_2 : ∀ i : grid0.Coords, EltTy.bits .bf16 = 32 ∨ (Rect.block (s := S16384x192) S512x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .bf16 = 32 ∨ (Rect.block (s := S8x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .bf16 = 32 ∨ (Rect.block (s := S8x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S512x1024_S1024x192_S512x192_1_0_0_1_n_n : DotDims S512x1024 S1024x192 S512x192 where
  lhsContracting := [1]
  rhsContracting := [0]
  lhsNonContracting := [0]
  rhsNonContracting := [1]
  lhsBatch := []
  rhsBatch := []
  wf := dot_S512x1024_S1024x192_S512x192_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.ProjCallBits.lean ====
/-
  The projection call (the first of the program's two kernel calls), at any float instance: one grid point multiplies a
  512-row tile of the flattened input by the whole 1024 × 192 weight matrix and stores the 512 × 192 product.
  Stated at a PARAMETER `V`, the buffers' contents when the call is entered: each window's block at a point, what the
  body leaves in the output tile as a function of the two input tiles, the body's triple, the call's proof data and
  the body obligation at a generic point.
-/
import proofs.«164767_j85864986181949_1_alg».proof.Proof.Gen.Kernel.Launch
import proofs.«164767_j85864986181949_1_alg».proof.Proof.Gen.Kernel.Skeleton
import proofs.«164767_j85864986181949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.ProjCall

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point, for any proof data whose array is `V`'s and whose
    body leaves the block in place. -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the whole matrix at every point: it is fetched once, and its block index
    never moves. -/
theorem found_w {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: three whole tiles -/

abbrev rX : Rect S512x1024 := Rect.unit (s := S512x1024) ![0, 0] S512x1024.size inb_S512x1024_S512x1024_0_0
abbrev rW : Rect S1024x192 := Rect.unit (s := S1024x192) ![0, 0] S1024x192.size inb_S1024x192_S1024x192_0_0
abbrev rO : Rect S512x192 := Rect.unit (s := S512x192) ![0, 0] S512x192.size inb_S512x192_S512x192_0_0

/-- The output tile after the body: its one store, of the product of the two loaded tiles. -/
def outTile (x : Vec F S512x1024 .f32) (w : Vec F S1024x192 .f32) : Vec F S512x192 .bf16 :=
  View.canon [⟨rO, k0_pay1 (View.ld x rX) (View.ld w rW)⟩]

/-- The one store covers the tile. -/
theorem outCover (p : Vec F S512x192 .bf16) (y : S512x192.Idx) :
    ∃ pc ∈ ([⟨rO, p⟩] : List (View.Piece (Elt F) S512x192 .bf16)), y ∈ pc.1.set :=
  View.cover_of_tiled [⟨rO, p⟩] S512x192.size (by rfl) y

/-! ## The body's triple -/

set_option maxHeartbeats 1000000 in
/-- The body on whole staging memrefs, the inputs' at contents `x`, `w` and the output's at anything, runs to the
    continuation holding the inputs as they were and the output at `outTile x w`. -/
theorem body_runs (c : Dev nD) (E : Set ℕ) (i : grid0.Coords) (arg1 : Memref sig .tc .vmem S512x1024 .f32) (harg1 : arg1.IsWhole)
    (arg2 : Memref sig .tc .vmem S1024x192 .f32) (harg2 : arg2.IsWhole) (arg3 : Memref sig .tc .vmem S512x192 .bf16) (harg3 : arg3.IsWhole)
    (x : Vec F S512x1024 .f32) (w : Vec F S1024x192 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (outTile x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The call's proof data -/

/-- The proof data of the projection call on core `c`: the arrays as the call finds them; after the body at point `t`
    each input's buffer at its block and the output's at the product of the two blocks; the scoped rest and the
    generator register untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outTile (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_o (c : Dev nD) (t : Fin cfg0.N) : (dat V c).after 2 t = outTile (blk V c 0 t) (blk V c 1 t) := by dsimp only [dat]

theorem before_x (c : Dev nD) (t : Fin cfg0.N) (d) : (dat V c).before 0 t d = blk V c 0 t :=
  found_x V (dat V c) (dat_A V c 0) (after_x V c) t d
theorem before_w (c : Dev nD) (t : Fin cfg0.N) (d) : (dat V c).before 1 t d = blk V c 1 t :=
  found_w V (dat V c) (dat_A V c 1) (after_w V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `body_runs` applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (body_runs c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

end Cert.Kernel.ProjCall

end
-- ==== Proof.AttnCallBits.lean ====
/-
  The attention call (the second of the program's two kernel calls), at any float instance: one grid point `(b, j)`
  takes the 512 queries of tile `j` of batch `b` and all 2048 keys and values of that batch, and stores the 512 × 64 tile
  of causal attention; the mask depends on the tile's position, so the stored value is a function of the grid
  coordinates as well as of the three loaded tiles.
  Stated at a PARAMETER `V`, the buffers' contents when the call is entered: each window's block at a point, what the
  body leaves in the output tile, the body's triple, the call's proof data and the body obligation at a generic point.
-/
import proofs.«164767_j85864986181949_1_alg».proof.Proof.Gen.Kernel.Launch
import proofs.«164767_j85864986181949_1_alg».proof.Proof.Gen.Kernel.Skeleton
import proofs.«164767_j85864986181949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.AttnCall

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point. -/
theorem found_q {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The keys' staging buffer holds the batch's keys at every point: fetched when the batch changes, kept within it. -/
theorem found_k {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The values' staging buffer likewise. -/
theorem found_v {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: four whole tiles -/

abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0

/-- The output tile after the body at grid coordinates `i`: its one store, of the attention of the three loaded tiles. -/
def outTile (i : grid1.Coords) (q : Vec F S1x512x64 .bf16) (k v : Vec F S1x2048x64 .bf16) : Vec F S1x512x64 .f32 :=
  View.canon [⟨rQ, k1_pay1 i (View.ld q rQ) (View.ld k rKV) (View.ld v rKV)⟩]

/-- The one store covers the tile. -/
theorem outCover (p : Vec F S1x512x64 .f32) (y : S1x512x64.Idx) :
    ∃ pc ∈ ([⟨rQ, p⟩] : List (View.Piece (Elt F) S1x512x64 .f32)), y ∈ pc.1.set :=
  View.cover_of_tiled [⟨rQ, p⟩] S1x512x64.size (by rfl) y

/-! ## The body's triple -/

set_option maxHeartbeats 1000000 in
/-- The body on whole staging memrefs, the inputs' at contents `q`, `k`, `v` and the output's at anything, runs to the
    continuation holding the inputs as they were and the output at `outTile i q k v`. -/
theorem body_runs (c : Dev nD) (E : Set ℕ) (i : grid1.Coords) (arg2 : Memref sig .tc .vmem S1x512x64 .bf16) (harg2 : arg2.IsWhole)
    (arg3 : Memref sig .tc .vmem S1x2048x64 .bf16) (harg3 : arg3.IsWhole) (arg4 : Memref sig .tc .vmem S1x2048x64 .bf16) (harg4 : arg4.IsWhole)
    (arg5 : Memref sig .tc .vmem S1x512x64 .f32) (harg5 : arg5.IsWhole)
    (q : Vec F S1x512x64 .bf16) (k v : Vec F S1x2048x64 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (outTile i q k v)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The call's proof data -/

/-- The proof data of the attention call on core `c`: the arrays as the call finds them; after the body at point `t`
    each input's buffer at its block and the output's at the attention of the three blocks at `t`'s coordinates; the
    scoped rest and the generator register untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outTile (grid1.coords t) (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_v (c : Dev nD) (t : Fin cfg1.N) : (dat V c).after 2 t = blk V c 2 t := by dsimp only [dat]
theorem after_o (c : Dev nD) (t : Fin cfg1.N) :
    (dat V c).after 3 t = outTile (grid1.coords t) (blk V c 0 t) (blk V c 1 t) (blk V c 2 t) := by dsimp only [dat]

theorem before_q (c : Dev nD) (t : Fin cfg1.N) (d) : (dat V c).before 0 t d = blk V c 0 t :=
  found_q V (dat V c) (dat_A V c 0) (after_q V c) t d
theorem before_k (c : Dev nD) (t : Fin cfg1.N) (d) : (dat V c).before 1 t d = blk V c 1 t :=
  found_k V (dat V c) (dat_A V c 1) (after_k V c) t d
theorem before_v (c : Dev nD) (t : Fin cfg1.N) (d) : (dat V c).before 2 t d = blk V c 2 t :=
  found_v V (dat V c) (dat_A V c 2) (after_v V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so `body_runs` applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).Φ t.succ = (dat V c).Φ t.castSucc from rfl,
    show (dat V c).owesAt () t.succ = (dat V c).owesAt () t.castSucc from rfl,
    after_q, after_k, after_v, after_o]
  iintro ⟨HΦ, Ho, ⟨%d0, H0⟩, ⟨%d1, H1⟩, ⟨%d2, H2⟩, ⟨%d3, H3⟩⟩
  iapply (body_runs c Set.univ (grid1.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.AttnCall

end
-- ==== Proof.TwoCallsBits.lean ====
/-
  The whole program at any float instance: @main is two host operations (the three weight matrices side by side, the
  input flattened to rows), the projection call, four host operations (the product reshaped per batch and cut into the
  query, key and value columns) and the attention call. The buffers' contents at the five boundaries are a fold from the
  launch memory: a host stretch applies its operations, a call leaves its arrays at what its write-backs leave and every
  other buffer alone. Each call's proof data is taken at its entry contents, each call is a region between the thread
  states "every unscoped buffer at the boundary's contents, the generator register at some state, nothing owed", and the
  launch theorem gives: every weakly fair execution terminates with every unscoped buffer at the last boundary's contents.
  From that: the four arguments end as launched, and the result array holds what the attention call's write-backs leave.
-/
import proofs.«164767_j85864986181949_1_alg».proof.Proof.ProjCallBits
import proofs.«164767_j85864986181949_1_alg».proof.Proof.AttnCallBits
import proofs.«164767_j85864986181949_1_alg».proof.Proof.Gen.Kernel.Regions

set_option maxRecDepth 16384

noncomputable section

namespace Cert.Kernel.TwoCalls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the first host stretch (the projection call's entry). -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- At the projection call's exit: its arrays at what the pipeline leaves, every other buffer as entered. -/
def B2 (c : Dev nD) : Valuation τ sig (Elt F) :=
  Pipeline.withArrays spec0 c (B1 m c) fun w => (ProjCall.dat (E1 m) c).arrAt w cfg0.N
theorem B2_arr (c : Dev nD) (w : Fin cfg0.W) :
    B2 m c (Proc.devRef .tc (Pipeline.arrRef spec0 w)) = (ProjCall.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem exit0_arr (c : Dev nD) (w : Fin cfg0.W) : (ProjCall.dat (E1 m) c).arrAt w cfg0.N = E2 m c (Pipeline.arrRef spec0 w) :=
  (B2_arr m c w).symm
theorem exit0_rest (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (the attention call's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention call's exit. -/
def B4 (c : Dev nD) : Valuation τ sig (Elt F) :=
  Pipeline.withArrays spec1 c (B3 m c) fun w => (AttnCall.dat (E3 m) c).arrAt w cfg1.N
theorem B4_arr (c : Dev nD) (w : Fin cfg1.W) :
    B4 m c (Proc.devRef .tc (Pipeline.arrRef spec1 w)) = (AttnCall.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem exit1_arr (c : Dev nD) (w : Fin cfg1.W) : (AttnCall.dat (E3 m) c).arrAt w cfg1.N = E4 m c (Pipeline.arrRef spec1 w) :=
  (B4_arr m c w).symm
theorem exit1_rest (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ### A buffer no host operation writes and no call stages ends as launched -/

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h

theorem B4_untouched (c : Dev nD) (r : Ref sig .tc) (h1 : r ∉ hostOps0_W) (h2 : ∀ w, Pipeline.arrRef spec0 w ≠ r)
    (h3 : r ∉ hostOps1_W) (h4 : ∀ w, Pipeline.arrRef spec1 w ≠ r) :
    B4 m c (Proc.devRef .tc r) = m ((c : Thread nD τ).loc r) :=
  (B4_of_ne m c r h4).trans <| (B3_of m c r h3).trans <| (B2_of_ne m c r h2).trans <| (B1_of m c r h1).trans rfl

theorem B4_main_arg0 (c : Dev nD) : B4 m c (Proc.devRef .tc main_arg0) = m ((c : Thread nD τ).loc main_arg0) :=
  B4_untouched m c main_arg0 (by decide) (by decide) (by decide) (by decide)
theorem B4_main_arg1 (c : Dev nD) : B4 m c (Proc.devRef .tc main_arg1) = m ((c : Thread nD τ).loc main_arg1) :=
  B4_untouched m c main_arg1 (by decide) (by decide) (by decide) (by decide)
theorem B4_main_arg2 (c : Dev nD) : B4 m c (Proc.devRef .tc main_arg2) = m ((c : Thread nD τ).loc main_arg2) :=
  B4_untouched m c main_arg2 (by decide) (by decide) (by decide) (by decide)
theorem B4_main_arg3 (c : Dev nD) : B4 m c (Proc.devRef .tc main_arg3) = m ((c : Thread nD τ).loc main_arg3) :=
  B4_untouched m c main_arg3 (by decide) (by decide) (by decide) (by decide)

/-! ## The proof data family and the thread state -/

/-- Both calls' proof data, each at its call's entry contents. -/
def calls : (p : Fin 2) → (c : Dev nD) → Dat τ (Elt F) Unit ℕ (UR sig nD τ) ℕ (Pipeline.pin (pcfgs (F := F)) adm p) c
  | ⟨0, _⟩ => fun c => ProjCall.dat (E1 m) c
  | ⟨1, _⟩ => fun c => AttnCall.dat (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item of @main, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (B4 m c) ∗ ∃ r, prngReg c r)

/-! ## The calls as regions -/

set_option backward.isDefEq.respectTransparency.types false in
/-- The projection call over the thread state: entered from every unscoped buffer at `B1`, left at `B2`. -/
def reg0 : Pipeline.RegionSeg (pcfgs (F := F)) adm (calls m) () defs₀ 𝒱₀ L lv 0 where
  win := launch0.win.to₀
  block_pos := launch0.block_pos
  stage_whole := launch0.stage_whole
  K := PEmpty
  osem k := k.elim
  ho := Pipeline.OwnSemFacts.none _
  hbody c := (ProjCall.body_obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (calls m) launch0.win launch0.arr_whole c
      ((calls m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 0 c).Φ 0 = Pipeline.ΦA spec0 c from rfl]; unfold Pipeline.ΦA
    iintro ⟨Hp, -, Hr⟩
    isplitl [Hr]; · iexact Hr
    iexact Hp
  hout c := by
    rw [Pipeline.ownSems0_none, show (calls m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (calls m) ((calls m 0 c).share_full fun _ => rfl)
      (E1 m c) (E2 m c) ((calls m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `B3`, left at `B4`. -/
def reg1 : Pipeline.RegionSeg (pcfgs (F := F)) adm (calls m) () defs₀ 𝒱₀ L lv 1 where
  win := launch1.win.to₀
  block_pos := launch1.block_pos
  stage_whole := launch1.stage_whole
  K := PEmpty
  osem k := k.elim
  ho := Pipeline.OwnSemFacts.none _
  hbody c := (AttnCall.body_obligation (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (calls m) launch1.win launch1.arr_whole c
      ((calls m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 1 c).Φ 0 = Pipeline.ΦA spec1 c from rfl]; unfold Pipeline.ΦA
    iintro ⟨Hp, -, Hr⟩
    isplitl [Hr]; · iexact Hr
    iexact Hp
  hout c := by
    rw [Pipeline.ownSems0_none, show (calls m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (calls m) ((calls m 1 c).share_full fun _ => rfl)
      (E3 m c) (E4 m c) ((calls m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) adm (calls m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
/-- @main is the run of its items. -/
theorem main_items (c : Dev nD) : main (F := F) c = Pipeline.Seg.run (items m) := (main_chain c).trans (by chain_rfl)

set_option backward.isDefEq.respectTransparency.types false in
/-- From any memory with zero counters, every weakly fair execution of @main terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (calls m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

/-- The result array ends at what the attention call's write-backs leave, beside the frame. -/
theorem run_result : θ_run defs (onTc (τ := τ) (main (F := F))) ⟨m, fun _ => 0, ρ⟩ (fun r => ∀ c : Dev nD,
      r.2.mem ((c.tc : Thread nD τ).loc main_v7) = (AttnCall.dat (E3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v7 (by decide))).trans (B4_arr m c 3),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

end Cert.Kernel.TwoCalls

end
-- ==== Proof.ProjCallIdeal.lean ====
/-
  The projection call (the first of the program's two kernel calls), at any float instance: one grid point multiplies a
  512-row tile of the flattened input by the whole 1024 × 192 weight matrix and stores the 512 × 192 product.
  Stated at a PARAMETER `V`, the buffers' contents when the call is entered: each window's block at a point, what the
  body leaves in the output tile as a function of the two input tiles, the body's triple, the call's proof data and
  the body obligation at a generic point.
-/
import proofs.«164767_j85864986181949_1_alg».proof.Proof.Gen.KernelIdeal.Launch
import proofs.«164767_j85864986181949_1_alg».proof.Proof.Gen.KernelIdeal.Skeleton
import proofs.«164767_j85864986181949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.ProjCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point, for any proof data whose array is `V`'s and whose
    body leaves the block in place. -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the whole matrix at every point: it is fetched once, and its block index
    never moves. -/
theorem found_w {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: three whole tiles -/

abbrev rX : Rect S512x1024 := Rect.unit (s := S512x1024) ![0, 0] S512x1024.size inb_S512x1024_S512x1024_0_0
abbrev rW : Rect S1024x192 := Rect.unit (s := S1024x192) ![0, 0] S1024x192.size inb_S1024x192_S1024x192_0_0
abbrev rO : Rect S512x192 := Rect.unit (s := S512x192) ![0, 0] S512x192.size inb_S512x192_S512x192_0_0

/-- The output tile after the body: its one store, of the product of the two loaded tiles. -/
def outTile (x : Vec F S512x1024 .f32) (w : Vec F S1024x192 .f32) : Vec F S512x192 .bf16 :=
  View.canon [⟨rO, k0_pay1 (View.ld x rX) (View.ld w rW)⟩]

/-- The one store covers the tile. -/
theorem outCover (p : Vec F S512x192 .bf16) (y : S512x192.Idx) :
    ∃ pc ∈ ([⟨rO, p⟩] : List (View.Piece (Elt F) S512x192 .bf16)), y ∈ pc.1.set :=
  View.cover_of_tiled [⟨rO, p⟩] S512x192.size (by rfl) y

/-! ## The body's triple -/

set_option maxHeartbeats 1000000 in
/-- The body on whole staging memrefs, the inputs' at contents `x`, `w` and the output's at anything, runs to the
    continuation holding the inputs as they were and the output at `outTile x w`. -/
theorem body_runs (c : Dev nD) (E : Set ℕ) (i : grid0.Coords) (arg1 : Memref sig .tc .vmem S512x1024 .f32) (harg1 : arg1.IsWhole)
    (arg2 : Memref sig .tc .vmem S1024x192 .f32) (harg2 : arg2.IsWhole) (arg3 : Memref sig .tc .vmem S512x192 .bf16) (harg3 : arg3.IsWhole)
    (x : Vec F S512x1024 .f32) (w : Vec F S1024x192 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (outTile x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The call's proof data -/

/-- The proof data of the projection call on core `c`: the arrays as the call finds them; after the body at point `t`
    each input's buffer at its block and the output's at the product of the two blocks; the scoped rest and the
    generator register untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outTile (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_o (c : Dev nD) (t : Fin cfg0.N) : (dat V c).after 2 t = outTile (blk V c 0 t) (blk V c 1 t) := by dsimp only [dat]

theorem before_x (c : Dev nD) (t : Fin cfg0.N) (d) : (dat V c).before 0 t d = blk V c 0 t :=
  found_x V (dat V c) (dat_A V c 0) (after_x V c) t d
theorem before_w (c : Dev nD) (t : Fin cfg0.N) (d) : (dat V c).before 1 t d = blk V c 1 t :=
  found_w V (dat V c) (dat_A V c 1) (after_w V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `body_runs` applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (body_runs c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

end Cert.KernelIdeal.ProjCall

end
-- ==== Proof.AttnCallIdeal.lean ====
/-
  The attention call (the second of the program's two kernel calls), at any float instance: one grid point `(b, j)`
  takes the 512 queries of tile `j` of batch `b` and all 2048 keys and values of that batch, and stores the 512 × 64 tile
  of causal attention; the mask depends on the tile's position, so the stored value is a function of the grid
  coordinates as well as of the three loaded tiles.
  Stated at a PARAMETER `V`, the buffers' contents when the call is entered: each window's block at a point, what the
  body leaves in the output tile, the body's triple, the call's proof data and the body obligation at a generic point.
-/
import proofs.«164767_j85864986181949_1_alg».proof.Proof.Gen.KernelIdeal.Launch
import proofs.«164767_j85864986181949_1_alg».proof.Proof.Gen.KernelIdeal.Skeleton
import proofs.«164767_j85864986181949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.AttnCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point. -/
theorem found_q {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The keys' staging buffer holds the batch's keys at every point: fetched when the batch changes, kept within it. -/
theorem found_k {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The values' staging buffer likewise. -/
theorem found_v {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: four whole tiles -/

abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0

/-- The output tile after the body at grid coordinates `i`: its one store, of the attention of the three loaded tiles. -/
def outTile (i : grid1.Coords) (q : Vec F S1x512x64 .bf16) (k v : Vec F S1x2048x64 .bf16) : Vec F S1x512x64 .f32 :=
  View.canon [⟨rQ, k1_pay1 i (View.ld q rQ) (View.ld k rKV) (View.ld v rKV)⟩]

/-- The one store covers the tile. -/
theorem outCover (p : Vec F S1x512x64 .f32) (y : S1x512x64.Idx) :
    ∃ pc ∈ ([⟨rQ, p⟩] : List (View.Piece (Elt F) S1x512x64 .f32)), y ∈ pc.1.set :=
  View.cover_of_tiled [⟨rQ, p⟩] S1x512x64.size (by rfl) y

/-! ## The body's triple -/

set_option maxHeartbeats 1000000 in
/-- The body on whole staging memrefs, the inputs' at contents `q`, `k`, `v` and the output's at anything, runs to the
    continuation holding the inputs as they were and the output at `outTile i q k v`. -/
theorem body_runs (c : Dev nD) (E : Set ℕ) (i : grid1.Coords) (arg2 : Memref sig .tc .vmem S1x512x64 .bf16) (harg2 : arg2.IsWhole)
    (arg3 : Memref sig .tc .vmem S1x2048x64 .bf16) (harg3 : arg3.IsWhole) (arg4 : Memref sig .tc .vmem S1x2048x64 .bf16) (harg4 : arg4.IsWhole)
    (arg5 : Memref sig .tc .vmem S1x512x64 .f32) (harg5 : arg5.IsWhole)
    (q : Vec F S1x512x64 .bf16) (k v : Vec F S1x2048x64 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (outTile i q k v)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The call's proof data -/

/-- The proof data of the attention call on core `c`: the arrays as the call finds them; after the body at point `t`
    each input's buffer at its block and the output's at the attention of the three blocks at `t`'s coordinates; the
    scoped rest and the generator register untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outTile (grid1.coords t) (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_v (c : Dev nD) (t : Fin cfg1.N) : (dat V c).after 2 t = blk V c 2 t := by dsimp only [dat]
theorem after_o (c : Dev nD) (t : Fin cfg1.N) :
    (dat V c).after 3 t = outTile (grid1.coords t) (blk V c 0 t) (blk V c 1 t) (blk V c 2 t) := by dsimp only [dat]

theorem before_q (c : Dev nD) (t : Fin cfg1.N) (d) : (dat V c).before 0 t d = blk V c 0 t :=
  found_q V (dat V c) (dat_A V c 0) (after_q V c) t d
theorem before_k (c : Dev nD) (t : Fin cfg1.N) (d) : (dat V c).before 1 t d = blk V c 1 t :=
  found_k V (dat V c) (dat_A V c 1) (after_k V c) t d
theorem before_v (c : Dev nD) (t : Fin cfg1.N) (d) : (dat V c).before 2 t d = blk V c 2 t :=
  found_v V (dat V c) (dat_A V c 2) (after_v V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so `body_runs` applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).Φ t.succ = (dat V c).Φ t.castSucc from rfl,
    show (dat V c).owesAt () t.succ = (dat V c).owesAt () t.castSucc from rfl,
    after_q, after_k, after_v, after_o]
  iintro ⟨HΦ, Ho, ⟨%d0, H0⟩, ⟨%d1, H1⟩, ⟨%d2, H2⟩, ⟨%d3, H3⟩⟩
  iapply (body_runs c Set.univ (grid1.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.AttnCall

end
-- ==== Proof.TwoCallsIdeal.lean ====
/-
  The whole program at any float instance: @main is two host operations (the three weight matrices side by side, the
  input flattened to rows), the projection call, four host operations (the product reshaped per batch and cut into the
  query, key and value columns) and the attention call. The buffers' contents at the five boundaries are a fold from the
  launch memory: a host stretch applies its operations, a call leaves its arrays at what its write-backs leave and every
  other buffer alone. Each call's proof data is taken at its entry contents, each call is a region between the thread
  states "every unscoped buffer at the boundary's contents, the generator register at some state, nothing owed", and the
  launch theorem gives: every weakly fair execution terminates with every unscoped buffer at the last boundary's contents.
  From that: the four arguments end as launched, and the result array holds what the attention call's write-backs leave.
-/
import proofs.«164767_j85864986181949_1_alg».proof.Proof.ProjCallIdeal
import proofs.«164767_j85864986181949_1_alg».proof.Proof.AttnCallIdeal
import proofs.«164767_j85864986181949_1_alg».proof.Proof.Gen.KernelIdeal.Regions

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the first host stretch (the projection call's entry). -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- At the projection call's exit: its arrays at what the pipeline leaves, every other buffer as entered. -/
def B2 (c : Dev nD) : Valuation τ sig (Elt F) :=
  Pipeline.withArrays spec0 c (B1 m c) fun w => (ProjCall.dat (E1 m) c).arrAt w cfg0.N
theorem B2_arr (c : Dev nD) (w : Fin cfg0.W) :
    B2 m c (Proc.devRef .tc (Pipeline.arrRef spec0 w)) = (ProjCall.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem exit0_arr (c : Dev nD) (w : Fin cfg0.W) : (ProjCall.dat (E1 m) c).arrAt w cfg0.N = E2 m c (Pipeline.arrRef spec0 w) :=
  (B2_arr m c w).symm
theorem exit0_rest (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (the attention call's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention call's exit. -/
def B4 (c : Dev nD) : Valuation τ sig (Elt F) :=
  Pipeline.withArrays spec1 c (B3 m c) fun w => (AttnCall.dat (E3 m) c).arrAt w cfg1.N
theorem B4_arr (c : Dev nD) (w : Fin cfg1.W) :
    B4 m c (Proc.devRef .tc (Pipeline.arrRef spec1 w)) = (AttnCall.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem exit1_arr (c : Dev nD) (w : Fin cfg1.W) : (AttnCall.dat (E3 m) c).arrAt w cfg1.N = E4 m c (Pipeline.arrRef spec1 w) :=
  (B4_arr m c w).symm
theorem exit1_rest (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ### A buffer no host operation writes and no call stages ends as launched -/

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h

theorem B4_untouched (c : Dev nD) (r : Ref sig .tc) (h1 : r ∉ hostOps0_W) (h2 : ∀ w, Pipeline.arrRef spec0 w ≠ r)
    (h3 : r ∉ hostOps1_W) (h4 : ∀ w, Pipeline.arrRef spec1 w ≠ r) :
    B4 m c (Proc.devRef .tc r) = m ((c : Thread nD τ).loc r) :=
  (B4_of_ne m c r h4).trans <| (B3_of m c r h3).trans <| (B2_of_ne m c r h2).trans <| (B1_of m c r h1).trans rfl

theorem B4_main_arg0 (c : Dev nD) : B4 m c (Proc.devRef .tc main_arg0) = m ((c : Thread nD τ).loc main_arg0) :=
  B4_untouched m c main_arg0 (by decide) (by decide) (by decide) (by decide)
theorem B4_main_arg1 (c : Dev nD) : B4 m c (Proc.devRef .tc main_arg1) = m ((c : Thread nD τ).loc main_arg1) :=
  B4_untouched m c main_arg1 (by decide) (by decide) (by decide) (by decide)
theorem B4_main_arg2 (c : Dev nD) : B4 m c (Proc.devRef .tc main_arg2) = m ((c : Thread nD τ).loc main_arg2) :=
  B4_untouched m c main_arg2 (by decide) (by decide) (by decide) (by decide)
theorem B4_main_arg3 (c : Dev nD) : B4 m c (Proc.devRef .tc main_arg3) = m ((c : Thread nD τ).loc main_arg3) :=
  B4_untouched m c main_arg3 (by decide) (by decide) (by decide) (by decide)

/-! ## The proof data family and the thread state -/

/-- Both calls' proof data, each at its call's entry contents. -/
def calls : (p : Fin 2) → (c : Dev nD) → Dat τ (Elt F) Unit ℕ (UR sig nD τ) ℕ (Pipeline.pin (pcfgs (F := F)) adm p) c
  | ⟨0, _⟩ => fun c => ProjCall.dat (E1 m) c
  | ⟨1, _⟩ => fun c => AttnCall.dat (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item of @main, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (B4 m c) ∗ ∃ r, prngReg c r)

/-! ## The calls as regions -/

set_option backward.isDefEq.respectTransparency.types false in
/-- The projection call over the thread state: entered from every unscoped buffer at `B1`, left at `B2`. -/
def reg0 : Pipeline.RegionSeg (pcfgs (F := F)) adm (calls m) () defs₀ 𝒱₀ L lv 0 where
  win := launch0.win.to₀
  block_pos := launch0.block_pos
  stage_whole := launch0.stage_whole
  K := PEmpty
  osem k := k.elim
  ho := Pipeline.OwnSemFacts.none _
  hbody c := (ProjCall.body_obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (calls m) launch0.win launch0.arr_whole c
      ((calls m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 0 c).Φ 0 = Pipeline.ΦA spec0 c from rfl]; unfold Pipeline.ΦA
    iintro ⟨Hp, -, Hr⟩
    isplitl [Hr]; · iexact Hr
    iexact Hp
  hout c := by
    rw [Pipeline.ownSems0_none, show (calls m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (calls m) ((calls m 0 c).share_full fun _ => rfl)
      (E1 m c) (E2 m c) ((calls m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `B3`, left at `B4`. -/
def reg1 : Pipeline.RegionSeg (pcfgs (F := F)) adm (calls m) () defs₀ 𝒱₀ L lv 1 where
  win := launch1.win.to₀
  block_pos := launch1.block_pos
  stage_whole := launch1.stage_whole
  K := PEmpty
  osem k := k.elim
  ho := Pipeline.OwnSemFacts.none _
  hbody c := (AttnCall.body_obligation (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (calls m) launch1.win launch1.arr_whole c
      ((calls m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 1 c).Φ 0 = Pipeline.ΦA spec1 c from rfl]; unfold Pipeline.ΦA
    iintro ⟨Hp, -, Hr⟩
    isplitl [Hr]; · iexact Hr
    iexact Hp
  hout c := by
    rw [Pipeline.ownSems0_none, show (calls m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (calls m) ((calls m 1 c).share_full fun _ => rfl)
      (E3 m c) (E4 m c) ((calls m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) adm (calls m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
/-- @main is the run of its items. -/
theorem main_items (c : Dev nD) : main (F := F) c = Pipeline.Seg.run (items m) := (main_chain c).trans (by chain_rfl)

set_option backward.isDefEq.respectTransparency.types false in
/-- From any memory with zero counters, every weakly fair execution of @main terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (calls m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

/-- The result array ends at what the attention call's write-backs leave, beside the frame. -/
theorem run_result : θ_run defs (onTc (τ := τ) (main (F := F))) ⟨m, fun _ => 0, ρ⟩ (fun r => ∀ c : Dev nD,
      r.2.mem ((c.tc : Thread nD τ).loc main_v7) = (AttnCall.dat (E3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v7 (by decide))).trans (B4_arr m c 3),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

end Cert.KernelIdeal.TwoCalls

end
-- ==== Proof.ProjArray.lean ====
/-
  The projection call's result array at the ideal instance, as ONE function of the two arrays the call reads: entry
  `(n, j)` of the 16384 × 192 product is `Σ_e X(n, e) · W(e, j)`. Grid point `t` writes back rows `512·t … 512·t + 511`,
  each entry the product of the point's input tile (the same rows of `X`) with the whole weight matrix; the 32 tiles
  cover the array, so after the call the array is that product.
  The body's stored value read at an index is a hypothesis here (`hpay`); the module that proves it is a sibling.
-/
import proofs.«164767_j85864986181949_1_alg».proof.Proof.ProjCallIdeal
import Idealize.ShloMosaic.Lib.Pipeline.Value
import Idealize.ShloMosaic.Lib.ValueIdx

set_option maxRecDepth 16384

noncomputable section

namespace Cert.KernelIdeal.ProjArray

open Cert.KernelIdeal Cert.KernelIdeal.Gen
open Idealize.ShloMosaic Idealize.ShloMosaic.TcCoe Idealize.ShloMosaic.ValueIdx Idealize.SL.Sem
open Idealize.ShloMosaic.Pipeline (Dat)

/-- The product of the flattened input and the three weight matrices side by side, index by index. -/
def prodArr (X : S16384x1024.Idx → EReal) (Wc : S1024x192.Idx → EReal) : S16384x192.Idx → EReal :=
  fun i => ∑ e : Fin 1024, X (ix2 (⟨(i 0).val, (i 0).isLt⟩ : Fin 16384) e) * Wc (ix2 e (⟨(i 1).val, (i 1).isLt⟩ : Fin 192))

theorem prodArr_apply (X : S16384x1024.Idx → EReal) (Wc : S1024x192.Idx → EReal) (n : Fin 16384) (j : Fin 192) :
    prodArr X Wc (ix2 n j) = ∑ e : Fin 1024, X (ix2 n e) * Wc (ix2 e j) := rfl

/-- The body's stored value read at an index: the statement the sibling module proves. -/
def PayAt : Prop := ∀ (x0 : Vec Ideal S512x1024 .f32) (w : Vec Ideal S1024x192 .f32) (r : Fin 512) (j : Fin 192),
    k0_pay1 (F := Ideal) x0 w (ix2 r j) = ∑ e : Fin 1024, x0 (ix2 r e) * w (ix2 e j)

theorem hz : (![0, 0] : Fin 2 → Nat) = fun _ => 0 := funext fun a => by fin_cases a <;> rfl

/-- The printed index maps over the grid: the input tile moves with the output tile along the rows, the weights stay. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 31 :=
  (by decide +kernel : ∀ t : Fin grid0.N, _)

/-- Every row tile is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

variable (V : (c : Dev nD) → (b : Ref sig .tc) → Buf (Elt Ideal) ((c : Thread nD τ).loc b))

/-- What point `t` writes back is block `t` of the product of the arrays as the call finds them. -/
theorem flushed_eq (hpay : PayAt) (c : Dev nD) (t : Fin cfg0.N) :
    (ProjCall.dat V c).flushed 2 t = ((cfg0.win 2).blk t).view.read (Elt Ideal) (prodArr (V c main_v1) (V c main_v0)) := by
  show (cfg0.win 2).cut (grid0.coords t) ((ProjCall.dat V c).after 2 t) = _
  rw [ProjCall.after_o]
  unfold ProjCall.outTile
  rw [View.canon_unit_zero hz]
  simp only [View.ld_unit_zero (S := S512x1024) hz, View.ld_unit_zero (S := S1024x192) hz]
  obtain ⟨e0, e1, e2, e3, e4, e5⟩ := idx_facts t
  funext j
  obtain ⟨r, q, rfl⟩ : ∃ (r : Fin 512) (q : Fin 192), j = ix2 r q := ⟨j 0, j 1, eq_ix2 j⟩
  show k0_pay1 (F := Ideal) (ProjCall.blk V c 0 t) (ProjCall.blk V c 1 t) (ix2 r q)
    = prodArr (V c main_v1) (V c main_v0) (((cfg0.win 2).blk t).view.emb (ix2 r q))
  rw [hpay]
  unfold prodArr
  refine Finset.sum_congr rfl fun e _ => ?_
  have hx : ProjCall.blk V c 0 t (ix2 r e)
      = V c main_v1 (ix2 (⟨((((cfg0.win 2).blk t).view.emb (ix2 r q)) 0).val, ((((cfg0.win 2).blk t).view.emb (ix2 r q)) 0).isLt⟩ : Fin 16384) e) := by
    show V c main_v1 (((cfg0.win 0).blk t).view.emb (ix2 r e)) = _
    refine congrArg _ (funext fun a => Fin.ext ?_)
    match a with
    | ⟨0, _⟩ =>
      show win0_0.index t (0 : Fin 2) * 512 + 1 * r.val = win0_2.index t (0 : Fin 2) * 512 + 1 * r.val
      omega
    | ⟨1, _⟩ =>
      show win0_0.index t (1 : Fin 2) * 1024 + 1 * e.val = e.val
      omega
  have hw : ProjCall.blk V c 1 t (ix2 e q)
      = V c main_v0 (ix2 e (⟨((((cfg0.win 2).blk t).view.emb (ix2 r q)) 1).val, ((((cfg0.win 2).blk t).view.emb (ix2 r q)) 1).isLt⟩ : Fin 192)) := by
    show V c main_v0 (((cfg0.win 1).blk t).view.emb (ix2 e q)) = _
    refine congrArg _ (funext fun a => Fin.ext ?_)
    match a with
    | ⟨0, _⟩ =>
      show win0_1.index t (0 : Fin 2) * 1024 + 1 * e.val = e.val
      omega
    | ⟨1, _⟩ =>
      show win0_1.index t (1 : Fin 2) * 192 + 1 * q.val = win0_2.index t (1 : Fin 2) * 192 + 1 * q.val
      omega
  rw [hx, hw]

/-- An index of the array is in point `t`'s block iff each coordinate is in the block's range on its axis. -/
theorem mem_blk (t : Fin cfg0.N) (i : S16384x192.Idx) :
    i ∈ ((cfg0.win 2).blk t).view.set ↔ ∀ a : Fin 2, win0_2.index t a * S512x192.size a ≤ (i a).val ∧ (i a).val < win0_2.index t a * S512x192.size a + S512x192.size a := by
  show i ∈ ((View.whole main_v2).slice (win0_2.rect t)).set ↔ _
  rw [View.set_slice_whole, Rect.mem_set_unit]
  exact Iff.rfl

/-- Row `n` lies in the tile of point `n / 512`: the tiles cover the array. -/
theorem cover (i : S16384x192.Idx) : ∃ t : Fin cfg0.N, (cfg0.win 2).flush t = true ∧ i ∈ ((cfg0.win 2).blk t).view.set := by
  have hi0 : (i 0).val < 16384 := (i 0).isLt
  have hi1 : (i 1).val < 192 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 192 ≤ (i 1).val ∧ (i 1).val < win0_2.index t (1 : Fin 2) * 192 + 192
    omega

/-- After the call the result array is the product of the two arrays the call found. -/
theorem final (hpay : PayAt) (c : Dev nD) :
    (ProjCall.dat V c).arrAt 2 cfg0.N = prodArr (V c main_v1) (V c main_v0) :=
  (ProjCall.dat V c).arrAt_eq_of_cover 2 _ (fun t _ => flushed_eq V hpay c t) cover

end Cert.KernelIdeal.ProjArray

end
-- ==== Proof.AttnSpec.lean ====
/-
  Causal single-head attention over the extended reals, as ONE function of the four argument arrays.

  For a batch `b`, a position `t` and a head coordinate `h`:
  * the three projections are plain matrix products, `proj x W b t d = Σ_e x(b,t,e) · W(e,d)`;
  * the score of key `k` for the query at position `n` is `(Σ_d q(d) · K(k,d)) · 1/8` when `k ≤ n` and `-∞` otherwise
    (the causal mask; `1/8 = 64^(-1/2)` is exact);
  * the row maximum is the fold of `max` over the 2048 keys from `-∞`, joined once more with `-∞`;
  * the weight of key `k` is `exp (score k − rowMax)`, and the result is `Σ_k (weight k / Σ_j weight j) · V(k,h)`.
  Nothing here is evaluated: the scale stays its f32 word, and only the word of `-∞` is read (`ofBits_negInf`).
-/
import Idealize.ShloMosaic.PureOps.Ideal
import Idealize.ShloMosaic.Lib.ValueIdx

noncomputable section

namespace Cert.Attn

open Idealize.ShloMosaic Idealize.ShloMosaic.ValueIdx

abbrev SX : Shape := ⟨3, ![8, 2048, 1024]⟩
abbrev SW : Shape := ⟨2, ![1024, 64]⟩
abbrev SO : Shape := ⟨3, ![8, 2048, 64]⟩

/-- The scale `64^(-1/2) = 1/8`, kept as its f32 word. -/
def eighth : EReal := Ideal.ofBits .f32 0x3E000000#32

/-- The f32 word of negative infinity denotes the bottom of the extended reals. -/
theorem ofBits_negInf : Ideal.ofBits .f32 0xFF800000#32 = (⊥ : EReal) := by
  simp [Ideal.ofBits, Ideal.ieee]

/-- The masked, scaled score of key `k` for a query row `q` at position `n`. -/
def score (q : Fin 64 → EReal) (K : Fin 2048 → Fin 64 → EReal) (n : ℕ) (k : Fin 2048) : EReal :=
  if k.val ≤ n then (∑ d : Fin 64, q d * K k d) * eighth else ⊥

/-- The maximum of a row of scores, as the two programs compute it: a fold of `max` from `-∞`, then `max` with `-∞`. -/
def rowMax (s : Fin 2048 → EReal) : EReal := max ⊥ ((Finset.univ : Finset (Fin 2048)).fold max ⊥ s)

/-- The unnormalised softmax weight of key `k`. -/
def weight (s : Fin 2048 → EReal) (k : Fin 2048) : EReal := Ideal.exp (s k - rowMax s)

/-- One row of causal attention: the softmax weights of the masked scores, normalised, applied to `V`. -/
def row (q : Fin 64 → EReal) (K V : Fin 2048 → Fin 64 → EReal) (n : ℕ) (h : Fin 64) : EReal :=
  ∑ k : Fin 2048, Ideal.div (weight (score q K n) k) (∑ j : Fin 2048, weight (score q K n) j) * V k h

/-- A linear projection of the embedding axis: `Σ_e x(b,t,e) · W(e,d)`. -/
def proj (x : SX.Idx → EReal) (W : SW.Idx → EReal) (b : Fin 8) (t : Fin 2048) (d : Fin 64) : EReal :=
  ∑ e : Fin 1024, x (ix3 b t e) * W (ix2 e d)

/-- Causal attention of `x` under the key, query and value projections `Wk`, `Wq`, `Wv`. -/
def attn (x : SX.Idx → EReal) (Wk Wq Wv : SW.Idx → EReal) : SO.Idx → EReal := fun i =>
  row (proj x Wq ⟨(i 0).val, (i 0).isLt⟩ ⟨(i 1).val, (i 1).isLt⟩) (proj x Wk ⟨(i 0).val, (i 0).isLt⟩)
    (proj x Wv ⟨(i 0).val, (i 0).isLt⟩) (i 1).val ⟨(i 2).val, (i 2).isLt⟩

theorem attn_apply (x : SX.Idx → EReal) (Wk Wq Wv : SW.Idx → EReal) (b : Fin 8) (t : Fin 2048) (h : Fin 64) :
    attn x Wk Wq Wv (ix3 b t h) = row (proj x Wq b t) (proj x Wk b) (proj x Wv b) t.val h := rfl

end Cert.Attn

end
-- ==== Proof.AttnArray.lean ====
/-
  The attention call's result array at the ideal instance, as ONE function of the three arrays the call reads: entry
  `(b, t, h)` is one row of causal attention — the query row `Q(b, t, ·)` against all keys `K(b, ·, ·)` and values
  `V(b, ·, ·)` of the same batch, at position `t`. Grid point `(b, j)` writes back the rows `512·j … 512·j + 511` of batch `b`;
  its query tile is those rows of `Q`, its key and value tiles are the whole batch, and the row's position inside the
  sequence is `512·j + r`. The 8 × 4 tiles cover the array, so after the call the array is that function.
  The body's stored value read at an index is a hypothesis here (`hpay`); the module that proves it is a sibling.
-/
import proofs.«164767_j85864986181949_1_alg».proof.Proof.AttnCallIdeal
import proofs.«164767_j85864986181949_1_alg».proof.Proof.AttnSpec
import Idealize.ShloMosaic.Lib.Pipeline.Value
import Idealize.ShloMosaic.Lib.ValueIdx

set_option maxRecDepth 16384

noncomputable section

namespace Cert.KernelIdeal.AttnArray

open Cert.KernelIdeal Cert.KernelIdeal.Gen
open Idealize.ShloMosaic Idealize.ShloMosaic.TcCoe Idealize.ShloMosaic.ValueIdx Idealize.SL.Sem
open Idealize.ShloMosaic.Pipeline (Dat)

/-- Causal attention of the query, key and value arrays, index by index. -/
def attnArr (Q K W : S8x2048x64.Idx → EReal) : S8x2048x64.Idx → EReal :=
  fun i => Cert.Attn.row (fun d => Q (ix3 (⟨(i 0).val, (i 0).isLt⟩ : Fin 8) (⟨(i 1).val, (i 1).isLt⟩ : Fin 2048) d))
    (fun kk d => K (ix3 (⟨(i 0).val, (i 0).isLt⟩ : Fin 8) kk d)) (fun kk d => W (ix3 (⟨(i 0).val, (i 0).isLt⟩ : Fin 8) kk d))
    (i 1).val (⟨(i 2).val, (i 2).isLt⟩ : Fin 64)

theorem attnArr_apply (Q K W : S8x2048x64.Idx → EReal) (b : Fin 8) (t : Fin 2048) (h : Fin 64) :
    attnArr Q K W (ix3 b t h) = Cert.Attn.row (fun d => Q (ix3 b t d)) (fun kk d => K (ix3 b kk d)) (fun kk d => W (ix3 b kk d)) t.val h := rfl

/-- The body's stored value read at an index: the statement the sibling module proves. -/
def PayAt : Prop := ∀ (i : grid1.Coords) (q : Vec Ideal S1x512x64 .bf16) (k v : Vec Ideal S1x2048x64 .bf16) (r : Fin 512) (h : Fin 64),
    k1_pay1 (F := Ideal) i q k v (ix3 (0 : Fin 1) r h)
      = Cert.Attn.row (fun d => q (ix3 (0 : Fin 1) r d)) (fun kk d => k (ix3 (0 : Fin 1) kk d)) (fun kk d => v (ix3 (0 : Fin 1) kk d))
          ((i 1).val * 512 + r.val) h

theorem hz : (![0, 0, 0] : Fin 3 → Nat) = fun _ => 0 := funext fun a => by fin_cases a <;> rfl

/-- The printed index maps over the grid: the query and result tiles sit at `(b, j, 0)`, the key and value tiles at `(b, 0, 0)`. -/
theorem idx_facts : ∀ t : Fin cfg1.N,
    win1_0.index t (0 : Fin 3) = (grid1.coords t (0 : Fin 2)).val ∧ win1_0.index t (1 : Fin 3) = (grid1.coords t (1 : Fin 2)).val ∧ win1_0.index t (2 : Fin 3) = 0
    ∧ win1_1.index t (0 : Fin 3) = (grid1.coords t (0 : Fin 2)).val ∧ win1_1.index t (1 : Fin 3) = 0 ∧ win1_1.index t (2 : Fin 3) = 0
    ∧ win1_2.index t (0 : Fin 3) = (grid1.coords t (0 : Fin 2)).val ∧ win1_2.index t (1 : Fin 3) = 0 ∧ win1_2.index t (2 : Fin 3) = 0
    ∧ win1_3.index t (0 : Fin 3) = (grid1.coords t (0 : Fin 2)).val ∧ win1_3.index t (1 : Fin 3) = (grid1.coords t (1 : Fin 2)).val ∧ win1_3.index t (2 : Fin 3) = 0
    ∧ (grid1.coords t (0 : Fin 2)).val ≤ 7 ∧ (grid1.coords t (1 : Fin 2)).val ≤ 3 :=
  (by decide +kernel : ∀ t : Fin grid1.N, _)

/-- Every tile is some point's. -/
theorem idx_onto : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

variable (V : (c : Dev nD) → (b : Ref sig .tc) → Buf (Elt Ideal) ((c : Thread nD τ).loc b))

/-- What point `t` writes back is block `t` of the attention of the arrays as the call finds them. -/
theorem flushed_eq (hpay : PayAt) (c : Dev nD) (t : Fin cfg1.N) :
    (AttnCall.dat V c).flushed 3 t
      = ((cfg1.win 3).blk t).view.read (Elt Ideal) (attnArr (V c main_v4) (V c main_v5) (V c main_v6)) := by
  show (cfg1.win 3).cut (grid1.coords t) ((AttnCall.dat V c).after 3 t) = _
  rw [AttnCall.after_o]
  unfold AttnCall.outTile
  rw [View.canon_unit_zero hz]
  simp only [View.ld_unit_zero (S := S1x512x64) hz, View.ld_unit_zero (S := S1x2048x64) hz]
  obtain ⟨a0, a1, a2, b0, b1, b2, c0, c1, c2, d0, d1, d2, g0, g1⟩ := idx_facts t
  funext j
  obtain ⟨u, r, h, rfl⟩ : ∃ (u : Fin 1) (r : Fin 512) (h : Fin 64), j = ix3 u r h := ⟨j 0, j 1, j 2, eq_ix3 j⟩
  obtain rfl : u = 0 := Subsingleton.elim _ _
  show k1_pay1 (F := Ideal) (grid1.coords t) (AttnCall.blk V c 0 t) (AttnCall.blk V c 1 t) (AttnCall.blk V c 2 t) (ix3 (0 : Fin 1) r h)
    = attnArr (V c main_v4) (V c main_v5) (V c main_v6) (((cfg1.win 3).blk t).view.emb (ix3 (0 : Fin 1) r h))
  rw [hpay]
  -- the array index the block's element sits at
  have hr : r.val < 512 := r.isLt
  have hh : h.val < 64 := h.isLt
  have hemb : ((cfg1.win 3).blk t).view.emb (ix3 (0 : Fin 1) r h)
      = ix3 (⟨(grid1.coords t (0 : Fin 2)).val, by omega⟩ : Fin 8) (⟨(grid1.coords t (1 : Fin 2)).val * 512 + r.val, by omega⟩ : Fin 2048) h := by
    funext a; apply Fin.ext
    match a with
    | ⟨0, _⟩ =>
      show win1_3.index t (0 : Fin 3) * 1 + 1 * 0 = (grid1.coords t (0 : Fin 2)).val
      omega
    | ⟨1, _⟩ =>
      show win1_3.index t (1 : Fin 3) * 512 + 1 * r.val = (grid1.coords t (1 : Fin 2)).val * 512 + r.val
      omega
    | ⟨2, _⟩ =>
      show win1_3.index t (2 : Fin 3) * 64 + 1 * h.val = h.val
      omega
  rw [hemb, attnArr_apply]
  have hq : (fun d : Fin 64 => AttnCall.blk V c 0 t (ix3 (0 : Fin 1) r d))
      = fun d => V c main_v4 (ix3 (⟨(grid1.coords t (0 : Fin 2)).val, by omega⟩ : Fin 8) (⟨(grid1.coords t (1 : Fin 2)).val * 512 + r.val, by omega⟩ : Fin 2048) d) := by
    funext d
    show V c main_v4 (((cfg1.win 0).blk t).view.emb (ix3 (0 : Fin 1) r d)) = _
    refine congrArg _ (funext fun a => Fin.ext ?_)
    have hd : d.val < 64 := d.isLt
    match a with
    | ⟨0, _⟩ =>
      show win1_0.index t (0 : Fin 3) * 1 + 1 * 0 = (grid1.coords t (0 : Fin 2)).val
      omega
    | ⟨1, _⟩ =>
      show win1_0.index t (1 : Fin 3) * 512 + 1 * r.val = (grid1.coords t (1 : Fin 2)).val * 512 + r.val
      omega
    | ⟨2, _⟩ =>
      show win1_0.index t (2 : Fin 3) * 64 + 1 * d.val = d.val
      omega
  have hk : (fun (kk : Fin 2048) (d : Fin 64) => AttnCall.blk V c 1 t (ix3 (0 : Fin 1) kk d))
      = fun kk d => V c main_v5 (ix3 (⟨(grid1.coords t (0 : Fin 2)).val, by omega⟩ : Fin 8) kk d) := by
    funext kk d
    show V c main_v5 (((cfg1.win 1).blk t).view.emb (ix3 (0 : Fin 1) kk d)) = _
    refine congrArg _ (funext fun a => Fin.ext ?_)
    match a with
    | ⟨0, _⟩ =>
      show win1_1.index t (0 : Fin 3) * 1 + 1 * 0 = (grid1.coords t (0 : Fin 2)).val
      omega
    | ⟨1, _⟩ =>
      show win1_1.index t (1 : Fin 3) * 2048 + 1 * kk.val = kk.val
      omega
    | ⟨2, _⟩ =>
      show win1_1.index t (2 : Fin 3) * 64 + 1 * d.val = d.val
      omega
  have hv : (fun (kk : Fin 2048) (d : Fin 64) => AttnCall.blk V c 2 t (ix3 (0 : Fin 1) kk d))
      = fun kk d => V c main_v6 (ix3 (⟨(grid1.coords t (0 : Fin 2)).val, by omega⟩ : Fin 8) kk d) := by
    funext kk d
    show V c main_v6 (((cfg1.win 2).blk t).view.emb (ix3 (0 : Fin 1) kk d)) = _
    refine congrArg _ (funext fun a => Fin.ext ?_)
    match a with
    | ⟨0, _⟩ =>
      show win1_2.index t (0 : Fin 3) * 1 + 1 * 0 = (grid1.coords t (0 : Fin 2)).val
      omega
    | ⟨1, _⟩ =>
      show win1_2.index t (1 : Fin 3) * 2048 + 1 * kk.val = kk.val
      omega
    | ⟨2, _⟩ =>
      show win1_2.index t (2 : Fin 3) * 64 + 1 * d.val = d.val
      omega
  rw [hq, hk, hv]

/-- An index of the array is in point `t`'s block iff each coordinate is in the block's range on its axis. -/
theorem mem_blk (t : Fin cfg1.N) (i : S8x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v7).slice (win1_3.rect t)).set ↔ _
  rw [View.set_slice_whole, Rect.mem_set_unit]
  exact Iff.rfl

/-- Entry `(b, t, h)` lies in the tile of point `(b, t / 512)`: the tiles cover the array. -/
theorem cover (i : S8x2048x64.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 64 ≤ (i 2).val ∧ (i 2).val < win1_3.index t (2 : Fin 3) * 64 + 64
    omega

/-- After the call the result array is the attention of the three arrays the call found. -/
theorem final (hpay : PayAt) (c : Dev nD) :
    (AttnCall.dat V c).arrAt 3 cfg1.N = attnArr (V c main_v4) (V c main_v5) (V c main_v6) :=
  (AttnCall.dat V c).arrAt_eq_of_cover 3 _ (fun t _ => flushed_eq V hpay c t) cover

end Cert.KernelIdeal.AttnArray

end
-- ==== Proof.HostGlue.lean ====
/-
  What the host operations between the calls leave in the arrays the calls read, at the ideal instance, at an index:
  * the input flattened to rows: row `2048·b + t` of the 16384 × 1024 array is `x(b, t, ·)`;
  * the three weight matrices side by side: columns `0…63` of the 1024 × 192 array are the query weights, `64…127` the key
    weights, `128…191` the value weights;
  * the product reshaped per batch and cut along its last axis: entry `(b, t, d)` of the query / key / value array is
    entry `(2048·b + t, d)` / `(…, 64 + d)` / `(…, 128 + d)` of the product.
-/
import proofs.«164767_j85864986181949_1_alg».proof.Proof.TwoCallsIdeal
import Idealize.ShloMosaic.Lib.Pipeline.Value
import Idealize.ShloMosaic.Lib.ValueIdx
import Idealize.ShloMosaic.Lib.StableHlo.Run

set_option maxRecDepth 16384

noncomputable section

namespace Cert.KernelIdeal.Glue

open Cert.KernelIdeal Cert.KernelIdeal.Gen Cert.KernelIdeal.TwoCalls
open Idealize.ShloMosaic Idealize.ShloMosaic.TcCoe Idealize.ShloMosaic.ValueIdx Idealize.SL.Sem Idealize.ShloMosaic.StableHlo

/-! ## Two layout facts over plain arrays -/

/-- A 16384 × 192 array reshaped to 8 × 2048 × 192 and cut at column offset `o`, read at `(b, t, d)`. -/
theorem slice_of_rows (o : ℕ) (X : S16384x192.Idx → EReal) (hc : S16384x192.ShapeCasts S8x2048x192)
    (hs : S8x2048x192.Slices ![0, 0, o] S8x2048x64)
    (b : Fin 8) (t : Fin 2048) (d : Fin 64) (n : Fin 16384) (j : Fin 192) (hn : n.val = b.val * 2048 + t.val) (hj : j.val = o + d.val) :
    extractStridedSlice S8x2048x64 ![0, 0, o] (shapeCast S8x2048x192 X hc) hs (ix3 b t d) = X (ix2 n j) := by
  refine (extractStridedSlice_apply _ _ _ (ix3 b t d) (ix3 b t j) (fun a => ?_)).trans ?_
  · match a with
    | ⟨0, _⟩ => exact (Nat.zero_add _).symm
    | ⟨1, _⟩ => exact (Nat.zero_add _).symm
    | ⟨2, _⟩ => exact hj
  · refine shapeCast_apply _ _ _ _ ?_
    rw [Shape.rowMajor_val_two, Shape.rowMajor_val_three]
    show n.val * 192 + j.val = (b.val * 2048 + t.val) * 192 + j.val
    rw [hn]

/-- An 8 × 2048 × 1024 array flattened to 16384 rows, read at row `2048·b + t`. -/
theorem rows_of_batches (X : S8x2048x1024.Idx → EReal) (hc : S8x2048x1024.ShapeCasts S16384x1024)
    (b : Fin 8) (t : Fin 2048) (e : Fin 1024) (n : Fin 16384) (hn : n.val = b.val * 2048 + t.val) :
    shapeCast S16384x1024 X hc (ix2 n e) = X (ix3 b t e) := by
  refine shapeCast_apply _ _ _ _ ?_
  rw [Shape.rowMajor_val_three, Shape.rowMajor_val_two]
  show (b.val * 2048 + t.val) * 1024 + e.val = n.val * 1024 + e.val
  rw [hn]

variable (m : (ℓ : Loc nD τ sig) → Buf (Elt Ideal) ℓ) (c : Dev nD)

/-! ## Before the projection call -/

theorem rows_eq : (E1 m c main_v1 : S16384x1024.Idx → EReal)
    = shapeCast S16384x1024 (m ((c : Thread nD τ).loc main_arg0)) shapeCasts_S8x2048x1024_S16384x1024 := by
  dsimp only [E1, B1, B0, hostOps0]
  after_results
  rfl

theorem rows_apply (b : Fin 8) (t : Fin 2048) (e : Fin 1024) (n : Fin 16384) (hn : n.val = b.val * 2048 + t.val) :
    E1 m c main_v1 (ix2 n e) = m ((c : Thread nD τ).loc main_arg0) (ix3 b t e) :=
  (congrFun (rows_eq m c) _).trans (rows_of_batches _ _ b t e n hn)

/-- The three weight matrices in the order the program lays them side by side: query, key, value. -/
abbrev pieces : List ((s : Shape) × (s.Idx → EReal)) :=
  [⟨S1024x64, m ((c : Thread nD τ).loc main_arg2)⟩, ⟨S1024x64, m ((c : Thread nD τ).loc main_arg1)⟩,
    ⟨S1024x64, m ((c : Thread nD τ).loc main_arg3)⟩]

theorem weights_eq : (E1 m c main_v0 : S1024x192.Idx → EReal)
    = concatenate S1024x192 1 (pieces m c) concatenates_S1024x64_S1024x64_S1024x64_S1024x192_d1 := by
  dsimp only [E1, B1, B0, hostOps0]
  after_results
  rfl

/-- Columns `0…63` are the query weights. -/
theorem wq_apply (e : Fin 1024) (d : Fin 64) (j : Fin 192) (hj : j.val = d.val) :
    E1 m c main_v0 (ix2 e j) = m ((c : Thread nD τ).loc main_arg2) (ix2 e d) := by
  refine (congrFun (weights_eq m c) _).trans ?_
  refine concatenate_apply_piece (1 : Fin 2) (pieces m c) _ (ix2 e j) 0 (by show (0 : ℕ) < 3; decide) S1024x64 _ rfl rfl 0 rfl (ix2 e d) (fun b hb => ?_) ?_
  · match b with
    | ⟨0, _⟩ => rfl
    | ⟨1, _⟩ => exact absurd rfl hb
  · show 0 + d.val = j.val
    omega

/-- Columns `64…127` are the key weights. -/
theorem wk_apply (e : Fin 1024) (d : Fin 64) (j : Fin 192) (hj : j.val = 64 + d.val) :
    E1 m c main_v0 (ix2 e j) = m ((c : Thread nD τ).loc main_arg1) (ix2 e d) := by
  refine (congrFun (weights_eq m c) _).trans ?_
  refine concatenate_apply_piece (1 : Fin 2) (pieces m c) _ (ix2 e j) 1 (by show (1 : ℕ) < 3; decide) S1024x64 _ rfl rfl 64 rfl (ix2 e d) (fun b hb => ?_) ?_
  · match b with
    | ⟨0, _⟩ => rfl
    | ⟨1, _⟩ => exact absurd rfl hb
  · show 64 + d.val = j.val
    omega

/-- Columns `128…191` are the value weights. -/
theorem wv_apply (e : Fin 1024) (d : Fin 64) (j : Fin 192) (hj : j.val = 128 + d.val) :
    E1 m c main_v0 (ix2 e j) = m ((c : Thread nD τ).loc main_arg3) (ix2 e d) := by
  refine (congrFun (weights_eq m c) _).trans ?_
  refine concatenate_apply_piece (1 : Fin 2) (pieces m c) _ (ix2 e j) 2 (by show (2 : ℕ) < 3; decide) S1024x64 _ rfl rfl 128 rfl (ix2 e d) (fun b hb => ?_) ?_
  · match b with
    | ⟨0, _⟩ => rfl
    | ⟨1, _⟩ => exact absurd rfl hb
  · show 128 + d.val = j.val
    omega

/-! ## Between the calls -/

theorem q_eq : (E3 m c main_v4 : S8x2048x64.Idx → EReal)
    = extractStridedSlice S8x2048x64 ![0, 0, 0] (shapeCast S8x2048x192 (B2 m c main_v2) shapeCasts_S16384x192_S8x2048x192)
        slices_S8x2048x192_S8x2048x64_0_0_0 := by
  dsimp only [E3, B3, hostOps1]
  after_results
  rfl

theorem k_eq : (E3 m c main_v5 : S8x2048x64.Idx → EReal)
    = extractStridedSlice S8x2048x64 ![0, 0, 64] (shapeCast S8x2048x192 (B2 m c main_v2) shapeCasts_S16384x192_S8x2048x192)
        slices_S8x2048x192_S8x2048x64_0_0_64 := by
  dsimp only [E3, B3, hostOps1]
  after_results
  rfl

theorem v_eq : (E3 m c main_v6 : S8x2048x64.Idx → EReal)
    = extractStridedSlice S8x2048x64 ![0, 0, 128] (shapeCast S8x2048x192 (B2 m c main_v2) shapeCasts_S16384x192_S8x2048x192)
        slices_S8x2048x192_S8x2048x64_0_0_128 := by
  dsimp only [E3, B3, hostOps1]
  after_results
  rfl

theorem q_apply (b : Fin 8) (t : Fin 2048) (d : Fin 64) (n : Fin 16384) (j : Fin 192) (hn : n.val = b.val * 2048 + t.val) (hj : j.val = 0 + d.val) :
    E3 m c main_v4 (ix3 b t d) = B2 m c main_v2 (ix2 n j) :=
  (congrFun (q_eq m c) _).trans (slice_of_rows 0 _ _ _ b t d n j hn hj)
theorem k_apply (b : Fin 8) (t : Fin 2048) (d : Fin 64) (n : Fin 16384) (j : Fin 192) (hn : n.val = b.val * 2048 + t.val) (hj : j.val = 64 + d.val) :
    E3 m c main_v5 (ix3 b t d) = B2 m c main_v2 (ix2 n j) :=
  (congrFun (k_eq m c) _).trans (slice_of_rows 64 _ _ _ b t d n j hn hj)
theorem v_apply (b : Fin 8) (t : Fin 2048) (d : Fin 64) (n : Fin 16384) (j : Fin 192) (hn : n.val = b.val * 2048 + t.val) (hj : j.val = 128 + d.val) :
    E3 m c main_v6 (ix3 b t d) = B2 m c main_v2 (ix2 n j) :=
  (congrFun (v_eq m c) _).trans (slice_of_rows 128 _ _ _ b t d n j hn hj)

end Cert.KernelIdeal.Glue

end
-- ==== Proof.KernelResult.lean ====
/-
  The kernel program's result at the ideal instance is the specification: causal attention of the input under the three
  projections. After the run the result array is the attention call's function of the query, key and value arrays it
  found (the blocks-to-array step of that call); those are columns of the projection call's product reshaped per batch;
  the product is that of the flattened input and the three weight matrices side by side (the blocks-to-array step of the
  first call); so each query, key and value entry is the corresponding linear projection `Σ_e x(b,t,e) · W(e,d)`.
-/
import proofs.«164767_j85864986181949_1_alg».proof.Proof.TwoCallsIdeal
import proofs.«164767_j85864986181949_1_alg».proof.Proof.ProjArray
import proofs.«164767_j85864986181949_1_alg».proof.Proof.AttnArray
import proofs.«164767_j85864986181949_1_alg».proof.Proof.HostGlue
import proofs.«164767_j85864986181949_1_alg».proof.Proof.AttnSpec

set_option maxRecDepth 16384

noncomputable section

namespace Cert.KernelIdeal.Result

open Cert.KernelIdeal Cert.KernelIdeal.Gen Cert.KernelIdeal.TwoCalls
open Idealize.ShloMosaic Idealize.ShloMosaic.TcCoe Idealize.ShloMosaic.ValueIdx Idealize.SL.Sem

variable (m : (ℓ : Loc nD τ sig) → Buf (Elt Ideal) ℓ) (c : Dev nD)

/-- The product array the projection call leaves, at an index. -/
theorem product_apply (hp0 : ProjArray.PayAt) (n : Fin 16384) (j : Fin 192) :
    B2 m c main_v2 (ix2 n j) = ProjArray.prodArr (E1 m c main_v1) (E1 m c main_v0) (ix2 n j) :=
  congrFun ((B2_arr m c 2).trans (ProjArray.final (E1 m) hp0 c)) (ix2 n j)

/-- The query array the attention call finds is the query projection of the input. -/
theorem q_proj (hp0 : ProjArray.PayAt) (b : Fin 8) (t : Fin 2048) (d : Fin 64) :
    E3 m c main_v4 (ix3 b t d) = Cert.Attn.proj (m ((c : Thread nD τ).loc main_arg0)) (m ((c : Thread nD τ).loc main_arg2)) b t d := by
  have hb := b.isLt; have ht := t.isLt; have hd := d.isLt
  rw [Glue.q_apply m c b t d ⟨b.val * 2048 + t.val, by omega⟩ ⟨d.val, by omega⟩ rfl (Nat.zero_add _).symm, product_apply m c hp0, ProjArray.prodArr_apply]
  unfold Cert.Attn.proj
  refine Finset.sum_congr (M := EReal) rfl fun e _ => ?_
  rw [Glue.rows_apply m c b t e _ rfl, Glue.wq_apply m c e d _ rfl]

/-- The key array is the key projection. -/
theorem k_proj (hp0 : ProjArray.PayAt) (b : Fin 8) (t : Fin 2048) (d : Fin 64) :
    E3 m c main_v5 (ix3 b t d) = Cert.Attn.proj (m ((c : Thread nD τ).loc main_arg0)) (m ((c : Thread nD τ).loc main_arg1)) b t d := by
  have hb := b.isLt; have ht := t.isLt; have hd := d.isLt
  rw [Glue.k_apply m c b t d ⟨b.val * 2048 + t.val, by omega⟩ ⟨64 + d.val, by omega⟩ rfl rfl, product_apply m c hp0, ProjArray.prodArr_apply]
  unfold Cert.Attn.proj
  refine Finset.sum_congr (M := EReal) rfl fun e _ => ?_
  rw [Glue.rows_apply m c b t e _ rfl, Glue.wk_apply m c e d _ rfl]

/-- The value array is the value projection. -/
theorem v_proj (hp0 : ProjArray.PayAt) (b : Fin 8) (t : Fin 2048) (d : Fin 64) :
    E3 m c main_v6 (ix3 b t d) = Cert.Attn.proj (m ((c : Thread nD τ).loc main_arg0)) (m ((c : Thread nD τ).loc main_arg3)) b t d := by
  have hb := b.isLt; have ht := t.isLt; have hd := d.isLt
  rw [Glue.v_apply m c b t d ⟨b.val * 2048 + t.val, by omega⟩ ⟨128 + d.val, by omega⟩ rfl rfl, product_apply m c hp0, ProjArray.prodArr_apply]
  unfold Cert.Attn.proj
  refine Finset.sum_congr (M := EReal) rfl fun e _ => ?_
  rw [Glue.rows_apply m c b t e _ rfl, Glue.wv_apply m c e d _ rfl]

/-- After the run the result array is causal attention of the input under the key, query and value weights. -/
theorem result_eq (hp0 : ProjArray.PayAt) (hp1 : AttnArray.PayAt) :
    (AttnCall.dat (E3 m) c).arrAt 3 cfg1.N
      = Cert.Attn.attn (m ((c : Thread nD τ).loc main_arg0)) (m ((c : Thread nD τ).loc main_arg1))
          (m ((c : Thread nD τ).loc main_arg2)) (m ((c : Thread nD τ).loc main_arg3)) := by
  rw [AttnArray.final (E3 m) hp1 c]
  funext i
  obtain ⟨b, t, h, rfl⟩ : ∃ (b : Fin 8) (t : Fin 2048) (h : Fin 64), i = ix3 b t h := ⟨i 0, i 1, i 2, eq_ix3 i⟩
  rw [AttnArray.attnArr_apply, Cert.Attn.attn_apply]
  have hq : (fun d : Fin 64 => E3 m c main_v4 (ix3 b t d))
      = Cert.Attn.proj (m ((c : Thread nD τ).loc main_arg0)) (m ((c : Thread nD τ).loc main_arg2)) b t :=
    funext fun d => q_proj m c hp0 b t d
  have hk : (fun (kk : Fin 2048) (d : Fin 64) => E3 m c main_v5 (ix3 b kk d))
      = Cert.Attn.proj (m ((c : Thread nD τ).loc main_arg0)) (m ((c : Thread nD τ).loc main_arg1)) b :=
    funext fun kk => funext fun d => k_proj m c hp0 b kk d
  have hv : (fun (kk : Fin 2048) (d : Fin 64) => E3 m c main_v6 (ix3 b kk d))
      = Cert.Attn.proj (m ((c : Thread nD τ).loc main_arg0)) (m ((c : Thread nD τ).loc main_arg3)) b :=
    funext fun kk => funext fun d => v_proj m c hp0 b kk d
  rw [hq, hk, hv]

end Cert.KernelIdeal.Result

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.AttnPayload.lean ====
/-
  The two kernel bodies' stored values, read at an index, over the extended reals.

  * The projection body stores the plain matrix product of its two blocks: entry `(r, j)` is `Σ_e x(r,e) · w(e,j)`
    (the casts between formats are the identity on extended reals, and the accumulator is zero).
  * The attention body stores, for one batch and one tile of 512 query rows, the row of causal attention that
    `Cert.Attn.row` writes, at the query position `tile · 512 + r`.
-/
import proofs.«164767_j85864986181949_1_alg».proof.Proof.Gen.KernelIdeal.Skeleton
import proofs.«164767_j85864986181949_1_alg».proof.Proof.AttnSpec
import proofs.«164767_j85864986181949_1_alg».proof.Proof.LibMatProd
import proofs.«164767_j85864986181949_1_alg».proof.Proof.LibKeepdims
import proofs.«164767_j85864986181949_1_alg».proof.Proof.LibRowReads
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.Affine

noncomputable section

namespace Cert.KernelIdeal.Payload

open Cert.KernelIdeal Cert.KernelIdeal.Gen Idealize.ShloMosaic Idealize.ShloMosaic.ValueIdx

/-! ## A matrix product on the matrix unit, into a zero accumulator -/

/-- A matrix-unit product of an `M × K` and a `K × N` array into the zero accumulator, read at `(r, q)`, is
    `Σ_{k < K} x (r, k) · w (k, q)`, for dimension numbers that contract the left's axis 1 against the right's axis 0
    (the four coordinate facts are hypotheses, read off each record). -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (x : FVec Ideal ⟨2, ![M, K]⟩ φ₁) (w : FVec Ideal ⟨2, ![K, N]⟩ φ₂)
    (r : Fin M) (q : Fin N) :
    matmul D prec x w (constant (F := Ideal) ⟨2, ![M, N]⟩ .f32 0x00000000#32) (ix2 r q)
      = ∑ k : Fin K, x (ix2 r k) * w (ix2 k q) :=
  (Ideal.matmul_constant_zero_apply D prec x w (ix2 r q)).trans
    (Cert.Gcn.Dense.sum_contr_eq_prod D hr hs hl0 hl1 hr0 hr1 x w (ix2 r q))

/-! ## The projection body -/

/-- The projection body's matrix product, read at `(r, j)`. -/
theorem proj_matmul_apply (x : FVec Ideal S512x1024 .bf16) (w : FVec Ideal S1024x192 .bf16) (r : Fin 512) (j : Fin 192) :
    matmul dot_S512x1024_S1024x192_S512x192_1_0_0_1_n_n none x w (constant (F := Ideal) S512x192 .f32 0x00000000#32) (ix2 r j)
      = ∑ e : Fin 1024, x (ix2 r e) * w (ix2 e j) :=
  matmul_zero_apply dot_S512x1024_S1024x192_S512x192_1_0_0_1_n_n rfl rfl
    (fun i q => by
      unfold DotDims.lhsIdx
      rw [dif_neg (show ¬(0 : Fin S512x1024.rank) ∈ dot_S512x1024_S1024x192_S512x192_1_0_0_1_n_n.lhsBatch by decide),
        dif_pos (show (0 : Fin S512x1024.rank) ∈ dot_S512x1024_S1024x192_S512x192_1_0_0_1_n_n.lhsNonContracting by decide)]
      rfl)
    (fun i q => dot_S512x1024_S1024x192_S512x192_1_0_0_1_n_n.lhsIdx_val_of_single rfl i q)
    (fun i q => dot_S512x1024_S1024x192_S512x192_1_0_0_1_n_n.rhsIdx_val_of_single rfl i q)
    (fun i q => by
      unfold DotDims.rhsIdx
      rw [dif_neg (show ¬(1 : Fin S1024x192.rank) ∈ dot_S512x1024_S1024x192_S512x192_1_0_0_1_n_n.rhsBatch by decide),
        dif_pos (show (1 : Fin S1024x192.rank) ∈ dot_S512x1024_S1024x192_S512x192_1_0_0_1_n_n.rhsNonContracting by decide)]
      rfl)
    none x w r j

/-- The projection body's stored value at `(r, j)` is the matrix product's entry. -/
theorem proj_pay_apply (x0 : Vec Ideal S512x1024 .f32) (w : Vec Ideal S1024x192 .f32) (r : Fin 512) (j : Fin 192) :
    k0_pay1 (F := Ideal) x0 w (ix2 r j) = ∑ e : Fin 1024, x0 (ix2 r e) * w (ix2 e j) := by
  unfold k0_pay1
  rw [truncf_apply, proj_matmul_apply]
  refine Finset.sum_congr rfl fun e _ => ?_
  rw [truncf_apply, truncf_apply, shapeCast_self, shapeCast_self]

/-! ## The attention body: the scores -/

/-- The product of the query tile with the transposed keys, read at `(r, kk)`. -/
theorem scores_matmul_apply (x : FVec Ideal S512x64 .bf16) (w : FVec Ideal S64x2048 .bf16) (r : Fin 512) (kk : Fin 2048) :
    matmul dot_S512x64_S64x2048_S512x2048_1_0_0_1_n_n none x w (constant (F := Ideal) S512x2048 .f32 0x00000000#32) (ix2 r kk)
      = ∑ d : Fin 64, x (ix2 r d) * w (ix2 d kk) :=
  matmul_zero_apply dot_S512x64_S64x2048_S512x2048_1_0_0_1_n_n rfl rfl
    (fun i q => by
      unfold DotDims.lhsIdx
      rw [dif_neg (show ¬(0 : Fin S512x64.rank) ∈ dot_S512x64_S64x2048_S512x2048_1_0_0_1_n_n.lhsBatch by decide),
        dif_pos (show (0 : Fin S512x64.rank) ∈ dot_S512x64_S64x2048_S512x2048_1_0_0_1_n_n.lhsNonContracting by decide)]
      rfl)
    (fun i q => dot_S512x64_S64x2048_S512x2048_1_0_0_1_n_n.lhsIdx_val_of_single rfl i q)
    (fun i q => dot_S512x64_S64x2048_S512x2048_1_0_0_1_n_n.rhsIdx_val_of_single rfl i q)
    (fun i q => by
      unfold DotDims.rhsIdx
      rw [dif_neg (show ¬(1 : Fin S64x2048.rank) ∈ dot_S512x64_S64x2048_S512x2048_1_0_0_1_n_n.rhsBatch by decide),
        dif_pos (show (1 : Fin S64x2048.rank) ∈ dot_S512x64_S64x2048_S512x2048_1_0_0_1_n_n.rhsNonContracting by decide)]
      rfl)
    none x w r kk

/-- The score of key `kk` for query row `r`, before scaling and masking: `Σ_d q(r,d) · k(kk,d)`. -/
theorem scores_apply (q : FVec Ideal S1x512x64 .bf16) (k : FVec Ideal S1x2048x64 .bf16) (r : Fin 512) (kk : Fin 2048) :
    matmul dot_S512x64_S64x2048_S512x2048_1_0_0_1_n_n none
        (shapeCast S512x64 q shapeCasts_S1x512x64_S512x64)
        (transpose S64x2048 [1, 0] (shapeCast S2048x64 k shapeCasts_S1x2048x64_S2048x64) transposes_S2048x64_p1_0_S64x2048)
        (constant (F := Ideal) S512x2048 .f32 0x00000000#32) (ix2 r kk)
      = ∑ d : Fin 64, q (ix3 (0 : Fin 1) r d) * k (ix3 (0 : Fin 1) kk d) := by
  rw [scores_matmul_apply]
  refine Finset.sum_congr rfl fun d _ => ?_
  rw [shapeCast_1ab_ab_apply, transpose_ix2_apply, shapeCast_1ab_ab_apply]

/-! ## The causal mask -/

/-- A natural below `2 ^ 31`, as a 32-bit word read signed, is itself. -/
theorem ofNat_toInt (n : ℕ) (hn : n < 2 ^ 31) : (BitVec.ofNat 32 n).toInt = (n : ℤ) := by
  have h1 : (BitVec.ofNat 32 n).toNat = n := by rw [BitVec.toNat_ofNat]; omega
  rw [BitVec.toInt_eq_toNat_of_lt (by omega), h1]

/-- The mask bit: for a tile `t < 4`, a row `r < 512` and a key `kk < 2048`, the signed comparison of the word of
    `kk` with the word `t · 512 + r` (computed in 32 bits) holds exactly when `kk ≤ t · 512 + r`: nothing wraps. -/
theorem causal_bit (t r kk : ℕ) (ht : t < 4) (hr : r < 512) (hk : kk < 2048) :
    IntOp.cmpi .sle (BitVec.ofNat 32 kk)
      (IntOp.addi (Scalar.muli (BitVec.ofNat 32 t) 512#32) (BitVec.ofNat 32 r)) = 1#1 ↔ kk ≤ t * 512 + r := by
  have e : IntOp.addi (Scalar.muli (BitVec.ofNat 32 t) 512#32) (BitVec.ofNat 32 r) = BitVec.ofNat 32 (t * 512 + r) := by
    show BitVec.ofNat 32 t * BitVec.ofNat 32 512 + BitVec.ofNat 32 r = _
    rw [BitVec.ofNat_add, BitVec.ofNat_mul]
  rw [IntOp.cmpi_sle, e, ofNat_toInt kk (by omega), ofNat_toInt (t * 512 + r) (by omega)]
  omega

/-- The masked matrix at `(r, kk)`: the scaled entry where key `kk` is not after position `t · 512 + r`, the
    masking value elsewhere. -/
theorem causal_select_apply (t : ℕ) (ht : t < 4) (S : FVec Ideal S512x2048 .f32) (c neg : EReal) (r : Fin 512) (kk : Fin 2048) :
    select
        (cmpi CmpIPredicate.sle (iota Kind.tc S512x2048 32 [1] iota_S512x2048_d1_w32)
          (addi (broadcast S512x2048 (Scalar.muli (BitVec.ofNat 32 t) 512#32))
            (iota Kind.tc S512x2048 32 [0] iota_S512x2048_d0_w32)))
        (mulf S (broadcast S512x2048 c)) (broadcast S512x2048 neg) (ix2 r kk)
      = if kk.val ≤ t * 512 + r.val then S (ix2 r kk) * c else neg := by
  have hb : cmpi CmpIPredicate.sle (iota Kind.tc S512x2048 32 [1] iota_S512x2048_d1_w32)
          (addi (broadcast S512x2048 (Scalar.muli (BitVec.ofNat 32 t) 512#32))
            (iota Kind.tc S512x2048 32 [0] iota_S512x2048_d0_w32)) (ix2 r kk)
        = IntOp.cmpi .sle (BitVec.ofNat 32 kk.val)
            (IntOp.addi (Scalar.muli (BitVec.ofNat 32 t) 512#32) (BitVec.ofNat 32 r.val)) := by
    show IntOp.cmpi .sle (iota Kind.tc S512x2048 32 [1] iota_S512x2048_d1_w32 (ix2 r kk))
        (IntOp.addi (Scalar.muli (BitVec.ofNat 32 t) 512#32)
          (iota Kind.tc S512x2048 32 [0] iota_S512x2048_d0_w32 (ix2 r kk))) = _
    rw [iota_single_apply, iota_single_apply]
  rw [select_apply, hb, mulf_apply, broadcast_apply, broadcast_apply]
  by_cases hle : kk.val ≤ t * 512 + r.val
  · rw [if_pos hle, (causal_bit t r.val kk.val ht r.isLt kk.isLt).mpr hle, select_one]
  · rw [if_neg hle, eq_zero_of_ne_one (fun hc => hle ((causal_bit t r.val kk.val ht r.isLt kk.isLt).mp hc)), select_zero]

/-- The named masking constant denotes the bottom of the extended reals. -/
theorem neg_big_eq : Named.named (F := Ideal) κ "neg_big" (φ := .f32) 0xF149F2CA#32 = (⊥ : EReal) :=
  IdealRules.named_const.ideal_named_scalar _ _ _ _ rfl

/-- The masked, scaled scores at `(r, kk)` are `Cert.Attn.score` of the query row, the keys and the row's position. -/
theorem masked_score_apply (i : grid1.Coords) (q : FVec Ideal S1x512x64 .bf16) (k : FVec Ideal S1x2048x64 .bf16)
    (r : Fin 512) (kk : Fin 2048) :
    select
        (cmpi CmpIPredicate.sle (iota Kind.tc S512x2048 32 [1] iota_S512x2048_d1_w32)
          (addi (broadcast S512x2048 (Scalar.muli (BitVec.ofNat 32 (i 1).val) 512#32))
            (iota Kind.tc S512x2048 32 [0] iota_S512x2048_d0_w32)))
        (mulf
          (matmul dot_S512x64_S64x2048_S512x2048_1_0_0_1_n_n none
            (shapeCast S512x64 q shapeCasts_S1x512x64_S512x64)
            (transpose S64x2048 [1, 0] (shapeCast S2048x64 k shapeCasts_S1x2048x64_S2048x64) transposes_S2048x64_p1_0_S64x2048)
            (constant (F := Ideal) S512x2048 .f32 0x00000000#32))
          (broadcast S512x2048 (Scalar.ofBits (F := Ideal) .f32 0x3E000000#32)))
        (broadcast S512x2048 (Named.named (F := Ideal) κ "neg_big" (φ := .f32) 0xF149F2CA#32)) (ix2 r kk)
      = Cert.Attn.score (fun d => q (ix3 (0 : Fin 1) r d)) (fun kk d => k (ix3 (0 : Fin 1) kk d))
          ((i 1).val * 512 + r.val) kk := by
  have hi : (i 1).val < 4 := (i 1).isLt
  rw [causal_select_apply (i 1).val hi, scores_apply, neg_big_eq]
  rfl

/-! ## One row's softmax, and the contraction with the values -/

/-- A vector cast to a column and broadcast along the rows: entry `(r, kk)` is the vector at `r`. -/
theorem column_apply (m : FVec Ideal S512 .f32) (r : Fin 512) (kk : Fin 2048) :
    broadcastTo S512x2048 (shapeCast S512x1 m shapeCasts_S512_S512x1) broadcasts_S512x1_S512x2048 (ix2 r kk) = m (ix1 r) := by
  rw [Cert.Keepdims.broadcastTo_a1_ab_apply, Cert.Keepdims.shapeCast_a_a1_apply]

/-- The exponential of a vector, read at an index. -/
theorem exp_apply {s : Shape} {φ : FTy} (a : FVec Ideal s φ) (i : s.Idx) : exp a i = Ideal.exp (a i) := rfl

/-- The row maxima of a matrix `s`, as the body takes them: the lane maximum from `-∞`, joined with `-∞`. -/
abbrev rowMaxVec (s : FVec Ideal S512x2048 .f32) (hφ : FKind.Formats .f32)
    (hm : (0xFF800000#32 : BitVec 32) = FKind.maximumf.neutral .f32 hφ) : FVec Ideal S512 .f32 :=
  maximumf (broadcast S512 (Scalar.ofBits (F := Ideal) .f32 0xFF800000#32))
    (multiReduction .maximumf [1] S512 s 0xFF800000#32 reduces_S512x2048_S512 hφ hm)

/-- The unnormalised weights: the exponential of each entry less its row's maximum. -/
abbrev weightMat (s : FVec Ideal S512x2048 .f32) (hφ : FKind.Formats .f32)
    (hm : (0xFF800000#32 : BitVec 32) = FKind.maximumf.neutral .f32 hφ) : FVec Ideal S512x2048 .f32 :=
  exp (subf s (broadcastTo S512x2048 (shapeCast S512x1 (rowMaxVec s hφ hm) shapeCasts_S512_S512x1)
    broadcasts_S512x1_S512x2048))

/-- The row sums of the weights. -/
abbrev rowSumVec (s : FVec Ideal S512x2048 .f32) (hφ : FKind.Formats .f32)
    (hm : (0xFF800000#32 : BitVec 32) = FKind.maximumf.neutral .f32 hφ)
    (ha : (0x00000000#32 : BitVec 32) = FKind.add.neutral .f32 hφ) : FVec Ideal S512 .f32 :=
  multiReduction .add [1] S512 (weightMat s hφ hm) 0x00000000#32 reduces_S512x2048_S512 hφ ha

/-- The normalised weights: each weight over its row's sum. -/
abbrev normMat (s : FVec Ideal S512x2048 .f32) (hφ : FKind.Formats .f32)
    (hm : (0xFF800000#32 : BitVec 32) = FKind.maximumf.neutral .f32 hφ)
    (ha : (0x00000000#32 : BitVec 32) = FKind.add.neutral .f32 hφ) : FVec Ideal S512x2048 .bf16 :=
  truncf .bf16 (divf (weightMat s hφ hm)
    (broadcastTo S512x2048 (shapeCast S512x1 (rowSumVec s hφ hm ha) shapeCasts_S512_S512x1) broadcasts_S512x1_S512x2048))
    bitsLt_bf16_f32

/-- The row maximum at `r` is `Cert.Attn.rowMax` of row `r`. -/
theorem rowMaxVec_apply (s : FVec Ideal S512x2048 .f32) (hφ : FKind.Formats .f32)
    (hm : (0xFF800000#32 : BitVec 32) = FKind.maximumf.neutral .f32 hφ) (r : Fin 512) :
    rowMaxVec s hφ hm (ix1 r) = Cert.Attn.rowMax (fun kk => s (ix2 r kk)) := by
  unfold rowMaxVec Cert.Attn.rowMax
  rw [maximumf_apply, broadcast_apply, Ideal.ofBits_def, Cert.Attn.ofBits_negInf]
  exact congrArg (max ⊥) ((Cert.RowReads.rowMax_apply s _ reduces_S512x2048_S512 hφ hm r).trans
    (by rw [Cert.Attn.ofBits_negInf]))

/-- The weight at `(r, kk)` is `Cert.Attn.weight` of row `r` at `kk`. -/
theorem weightMat_apply (s : FVec Ideal S512x2048 .f32) (hφ : FKind.Formats .f32)
    (hm : (0xFF800000#32 : BitVec 32) = FKind.maximumf.neutral .f32 hφ) (r : Fin 512) (kk : Fin 2048) :
    weightMat s hφ hm (ix2 r kk) = Cert.Attn.weight (fun kk => s (ix2 r kk)) kk := by
  unfold weightMat Cert.Attn.weight
  rw [exp_apply, subf_apply, column_apply, rowMaxVec_apply]

/-- The weights' row sum at `r`. -/
theorem rowSumVec_apply (s : FVec Ideal S512x2048 .f32) (hφ : FKind.Formats .f32)
    (hm : (0xFF800000#32 : BitVec 32) = FKind.maximumf.neutral .f32 hφ)
    (ha : (0x00000000#32 : BitVec 32) = FKind.add.neutral .f32 hφ) (r : Fin 512) :
    rowSumVec s hφ hm ha (ix1 r) = ∑ j : Fin 2048, Cert.Attn.weight (fun kk => s (ix2 r kk)) j :=
  (Cert.RowReads.rowSum_apply (weightMat s hφ hm) _ reduces_S512x2048_S512 hφ ha r).trans
    (Finset.sum_congr rfl fun j _ => weightMat_apply s hφ hm r j)

/-- The normalised weight at `(r, kk)`. -/
theorem normMat_apply (s : FVec Ideal S512x2048 .f32) (hφ : FKind.Formats .f32)
    (hm : (0xFF800000#32 : BitVec 32) = FKind.maximumf.neutral .f32 hφ)
    (ha : (0x00000000#32 : BitVec 32) = FKind.add.neutral .f32 hφ) (r : Fin 512) (kk : Fin 2048) :
    normMat s hφ hm ha (ix2 r kk)
      = Ideal.div (Cert.Attn.weight (fun kk => s (ix2 r kk)) kk) (∑ j : Fin 2048, Cert.Attn.weight (fun kk => s (ix2 r kk)) j) := by
  unfold normMat
  rw [truncf_apply, divf_apply, column_apply, weightMat_apply, rowSumVec_apply]

/-- The product of the normalised weights with the values, read at `(r, h)`. -/
theorem out_matmul_apply (x : FVec Ideal S512x2048 .bf16) (w : FVec Ideal S2048x64 .bf16) (r : Fin 512) (h : Fin 64) :
    matmul dot_S512x2048_S2048x64_S512x64_1_0_0_1_n_n none x w (constant (F := Ideal) S512x64 .f32 0x00000000#32) (ix2 r h)
      = ∑ kk : Fin 2048, x (ix2 r kk) * w (ix2 kk h) :=
  matmul_zero_apply dot_S512x2048_S2048x64_S512x64_1_0_0_1_n_n rfl rfl
    (fun i q => by
      unfold DotDims.lhsIdx
      rw [dif_neg (show ¬(0 : Fin S512x2048.rank) ∈ dot_S512x2048_S2048x64_S512x64_1_0_0_1_n_n.lhsBatch by decide),
        dif_pos (show (0 : Fin S512x2048.rank) ∈ dot_S512x2048_S2048x64_S512x64_1_0_0_1_n_n.lhsNonContracting by decide)]
      rfl)
    (fun i q => dot_S512x2048_S2048x64_S512x64_1_0_0_1_n_n.lhsIdx_val_of_single rfl i q)
    (fun i q => dot_S512x2048_S2048x64_S512x64_1_0_0_1_n_n.rhsIdx_val_of_single rfl i q)
    (fun i q => by
      unfold DotDims.rhsIdx
      rw [dif_neg (show ¬(1 : Fin S2048x64.rank) ∈ dot_S512x2048_S2048x64_S512x64_1_0_0_1_n_n.rhsBatch by decide),
        dif_pos (show (1 : Fin S2048x64.rank) ∈ dot_S512x2048_S2048x64_S512x64_1_0_0_1_n_n.rhsNonContracting by decide)]
      rfl)
    none x w r h

/-- From the masked scores `s` to the stored value: with row `r` of `s` read as `sc` and column `h` of the values read
    as `V`, the entry `(0, r, h)` is `Σ_kk (weight sc kk / Σ_j weight sc j) · V kk`. -/
theorem softmax_tail_apply (s : FVec Ideal S512x2048 .f32) (vv : FVec Ideal S2048x64 .bf16) (hφ : FKind.Formats .f32)
    (hm : (0xFF800000#32 : BitVec 32) = FKind.maximumf.neutral .f32 hφ)
    (ha : (0x00000000#32 : BitVec 32) = FKind.add.neutral .f32 hφ) (r : Fin 512) (h : Fin 64)
    (sc : Fin 2048 → EReal) (hsc : ∀ kk, s (ix2 r kk) = sc kk) (V : Fin 2048 → EReal) (hV : ∀ kk, vv (ix2 kk h) = V kk) :
    shapeCast S1x512x64
        (matmul dot_S512x2048_S2048x64_S512x64_1_0_0_1_n_n none (normMat s hφ hm ha) vv (constant (F := Ideal) S512x64 .f32 0x00000000#32))
        shapeCasts_S512x64_S1x512x64 (ix3 (0 : Fin 1) r h)
      = ∑ kk : Fin 2048, Ideal.div (Cert.Attn.weight sc kk) (∑ j : Fin 2048, Cert.Attn.weight sc j) * V kk := by
  have hs : (fun kk => s (ix2 r kk)) = sc := funext hsc
  rw [shapeCast_ab_1ab_apply, out_matmul_apply]
  refine Finset.sum_congr rfl fun kk _ => ?_
  rw [normMat_apply, hs, hV]

/-! ## The attention body -/

/-- The attention body's stored value at `(0, r, h)` is the row of causal attention at position `tile · 512 + r`. -/
theorem attn_pay_apply (i : grid1.Coords) (q : Vec Ideal S1x512x64 .bf16) (k v : Vec Ideal S1x2048x64 .bf16)
    (r : Fin 512) (h : Fin 64) :
    k1_pay1 (F := Ideal) i q k v (ix3 (0 : Fin 1) r h)
      = Cert.Attn.row (fun d => q (ix3 (0 : Fin 1) r d)) (fun kk d => k (ix3 (0 : Fin 1) kk d))
          (fun kk d => v (ix3 (0 : Fin 1) kk d)) ((i 1).val * 512 + r.val) h := by
  unfold k1_pay1 Cert.Attn.row
  refine softmax_tail_apply _ _ _ _ _ r h _ ?_ _ ?_
  · intro kk; exact masked_score_apply i q k r kk
  · intro kk; exact shapeCast_1ab_ab_apply v _ kk h

end Cert.KernelIdeal.Payload

end
-- ==== Proof.RefAttn.lean ====
/-
  The reference program's result is causal single-head attention of its four argument arrays.

  The reference computes, for a batch `b`, a position `t` and a head coordinate `h`:
  the three projections `x·Wk`, `x·Wq`, `x·Wv` as sums over the embedding axis; the scores
  `Σ_d q(b,t,d) · k(b,j,d)` times the word of 1/8; a lower-triangular mask built from two coordinate
  counters compared as signed words; `-∞` where the mask is off; then a softmax spelt out (a fold of
  `max` from `-∞`, `max` with `-∞` once more, a difference, an exponential, a sum from `0`, a quotient);
  and the product with the value projection. Read index by index this is `Cert.Attn.attn`: the
  proof is index bookkeeping, one small lemma per stage of the program.
-/
import proofs.«164767_j85864986181949_1_alg».proof.Proof.Gen.ReferenceIdeal.Read
import proofs.«164767_j85864986181949_1_alg».proof.Proof.AttnSpec
import Idealize.ShloMosaic.Lib.Affine

noncomputable section

namespace Cert.ReferenceIdeal.RefValue

open Cert.ReferenceIdeal Cert.ReferenceIdeal.Gen Idealize.ShloMosaic Idealize.ShloMosaic.ValueIdx
  Idealize.ShloMosaic.TcCoe Idealize.SL.Sem
open Cert.Attn (proj score rowMax weight row attn eighth)

/-! ## Words of small naturals, and the mask bit -/

/-- A natural below `2048` is the signed value of its 32-bit word. -/
theorem toInt_ofNat32 {n : ℕ} (h : n < 2048) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The comparison `row + 0 ≥ column` of the two coordinate counters, as signed words, is on exactly when the
    column is at most the row. -/
theorem tril_bit {t k : ℕ} (ht : t < 2048) (hk : k < 2048) :
    IntOp.cmpi .sge (IntOp.addi (BitVec.ofNat 32 t) 0#32) (BitVec.ofNat 32 k) = if k ≤ t then 1#1 else 0#1 := by
  have h0 : IntOp.addi (BitVec.ofNat 32 t) 0#32 = BitVec.ofNat 32 t := BitVec.add_zero _
  rw [h0]
  by_cases h : k ≤ t
  · rw [if_pos h]
    exact IntOp.cmpi_sge.mpr (by rw [toInt_ofNat32 ht, toInt_ofNat32 hk]; exact_mod_cast h)
  · rw [if_neg h]
    refine eq_zero_of_ne_one fun hc => h ?_
    have := IntOp.cmpi_sge.mp hc
    rw [toInt_ofNat32 ht, toInt_ofNat32 hk] at this
    exact_mod_cast this

variable (x0 : FVec Ideal S8x2048x1024 .f32) (x1 x2 x3 : FVec Ideal S1024x64 .f32)

/-! ## The three projections -/

theorem v0_apply (b : Fin 8) (t : Fin 2048) (d : Fin 64) :
    Read.val_main_v0 (F := Ideal) x0 x1 (ix3 b t d) = proj x0 x1 b t d := by
  rw [Read.val_main_v0_apply]
  unfold Cert.Attn.proj
  refine Finset.sum_congr rfl fun e _ => ?_
  have el : Read.lidx_main_v0 (ix3 b t d) e = ix3 b t e :=
    funext fun a => Fin.ext (by match a with | ⟨0, _⟩ => rfl | ⟨1, _⟩ => rfl | ⟨2, _⟩ => rfl)
  have er : Read.ridx_main_v0 (ix3 b t d) e = ix2 e d :=
    funext fun a => Fin.ext (by match a with | ⟨0, _⟩ => rfl | ⟨1, _⟩ => rfl)
  rw [el, er]

theorem v1_apply (b : Fin 8) (t : Fin 2048) (d : Fin 64) :
    Read.val_main_v1 (F := Ideal) x0 x2 (ix3 b t d) = proj x0 x2 b t d := by
  rw [Read.val_main_v1_apply]
  unfold Cert.Attn.proj
  refine Finset.sum_congr rfl fun e _ => ?_
  have el : Read.lidx_main_v1 (ix3 b t d) e = ix3 b t e :=
    funext fun a => Fin.ext (by match a with | ⟨0, _⟩ => rfl | ⟨1, _⟩ => rfl | ⟨2, _⟩ => rfl)
  have er : Read.ridx_main_v1 (ix3 b t d) e = ix2 e d :=
    funext fun a => Fin.ext (by match a with | ⟨0, _⟩ => rfl | ⟨1, _⟩ => rfl)
  rw [el, er]

theorem v2_apply (b : Fin 8) (t : Fin 2048) (d : Fin 64) :
    Read.val_main_v2 (F := Ideal) x0 x3 (ix3 b t d) = proj x0 x3 b t d := by
  rw [Read.val_main_v2_apply]
  unfold Cert.Attn.proj
  refine Finset.sum_congr rfl fun e _ => ?_
  have el : Read.lidx_main_v2 (ix3 b t d) e = ix3 b t e :=
    funext fun a => Fin.ext (by match a with | ⟨0, _⟩ => rfl | ⟨1, _⟩ => rfl | ⟨2, _⟩ => rfl)
  have er : Read.ridx_main_v2 (ix3 b t d) e = ix2 e d :=
    funext fun a => Fin.ext (by match a with | ⟨0, _⟩ => rfl | ⟨1, _⟩ => rfl)
  rw [el, er]

/-! ## The scores, scaled and masked -/

/-- The raw score of key `k` for the query at `t`: the product of the two projected rows. -/
theorem v3_apply (b : Fin 8) (t k : Fin 2048) :
    Read.val_main_v3 (F := Ideal) x0 x1 x2 (ix3 b t k) = ∑ d : Fin 64, proj x0 x2 b t d * proj x0 x1 b k d := by
  rw [Read.val_main_v3_apply]
  refine Finset.sum_congr rfl fun d _ => ?_
  have el : Read.lidx_main_v3 (ix3 b t k) d = ix3 b t d :=
    funext fun a => Fin.ext (by match a with | ⟨0, _⟩ => rfl | ⟨1, _⟩ => rfl | ⟨2, _⟩ => rfl)
  have er : Read.ridx_main_v3 (ix3 b t k) d = ix3 b k d :=
    funext fun a => Fin.ext (by match a with | ⟨0, _⟩ => rfl | ⟨1, _⟩ => rfl | ⟨2, _⟩ => rfl)
  rw [el, er, v1_apply, v0_apply]

/-- The score times the word of 1/8. -/
theorem v5_apply (b : Fin 8) (t k : Fin 2048) :
    Read.val_main_v5 (F := Ideal) x0 x1 x2 (ix3 b t k)
      = (∑ d : Fin 64, proj x0 x2 b t d * proj x0 x1 b k d) * eighth := by
  rw [Read.val_main_v5_apply, Read.val_main_v4_apply, Read.val_main_cst_apply, v3_apply, Ideal.mulf_def, Ideal.ofBits_def]
  rfl

/-- The lower-triangular mask at row `t`, column `k`. -/
theorem v7_apply (t k : Fin 2048) :
    Read.val_main_v7 (F := Ideal) (ix2 t k) = if k.val ≤ t.val then 1#1 else 0#1 := by
  rw [Read.val_main_v7_apply, Read.val_main_call0_v4_apply, Read.val_main_call0_v2_apply, Read.val_main_call0_v0_apply,
    Read.val_main_call0_v1_apply, Read.val_main_call0_c_apply, Read.val_main_call0_v3_apply, Read.val_main_v6_apply,
    Read.val_main_c_apply, Read.val_main_call0_v5_apply, Read.val_main_call0_c_0_apply]
  show Scalar.select (IntOp.cmpi .sge (IntOp.addi (BitVec.ofNat 32 t.val) 0#32) (BitVec.ofNat 32 k.val)) 1#1 0#1 = _
  rw [tril_bit t.isLt k.isLt]
  by_cases h : k.val ≤ t.val
  · rw [if_pos h, select_one]
  · rw [if_neg h, select_zero]

/-- The masked, scaled score is the specification's. -/
theorem v8_apply (b : Fin 8) (t k : Fin 2048) :
    Read.val_main_v8 (F := Ideal) x0 x1 x2 (ix3 b t k) = score (proj x0 x2 b t) (proj x0 x1 b) t.val k := by
  have hi : Read.idx_main_call1_v1 (ix3 b t k) = ix2 t k :=
    funext fun a => Fin.ext (by match a with | ⟨0, _⟩ => rfl | ⟨1, _⟩ => rfl)
  rw [Read.val_main_v8_apply, Read.val_main_call1_v1_apply, hi, v7_apply, v5_apply, Read.val_main_call1_v2_apply,
    Read.val_main_call1_v0_apply, Read.val_main_cst_0_apply, Ideal.ofBits_def, Cert.Attn.ofBits_negInf]
  unfold Cert.Attn.score
  by_cases h : k.val ≤ t.val
  · rw [if_pos h, if_pos h, select_one]
  · rw [if_neg h, if_neg h, select_zero]

/-! ## The row maximum -/

/-- Putting the key coordinate `k` back into the reduced index `(p, q)` gives `(p, q, k)`. -/
theorem lift_last3 {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The maximum-reduce of an `[a, b, c]` array along its last axis, read at `(p, q)`: the fold of `max` over the
    last axis from the initial value's one element. -/
theorem hostMax3_apply {a b c : ℕ} (x : FVec Ideal ⟨3, ![a, b, c]⟩ .f32) (init : FVec Ideal ⟨0, ![]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x init h' h hu]
  exact congrArg (fun f => Finset.fold max (init (Shape.Idx.first hu)) f (Finset.univ : Finset (Fin c)))
    (funext fun k => congrArg x (lift_last3 h p q k))

theorem reduces_d2 : S8x2048x2048.Reduces [2] S8x2048 := by decide

/-- The fold of `max` over the keys of the masked scores, from `-∞`. -/
theorem v9_apply (b : Fin 8) (t : Fin 2048) :
    Read.val_main_v9 (F := Ideal) x0 x1 x2 (ix2 b t)
      = (Finset.univ : Finset (Fin 2048)).fold max ⊥ (score (proj x0 x2 b t) (proj x0 x1 b) t.val) := by
  unfold Read.val_main_v9
  refine (hostMax3_apply (Read.val_main_v8 (F := Ideal) x0 x1 x2) (Read.val_main_cst_1 (F := Ideal))
    reducesTo_S8x2048x2048_S8x2048_d2 reduces_d2 h_S_ b t).trans ?_
  rw [Read.val_main_cst_1_apply, Ideal.ofBits_def, Cert.Attn.ofBits_negInf]
  exact congrArg (fun f => Finset.fold max (⊥ : EReal) f (Finset.univ : Finset (Fin 2048)))
    (funext fun k => v8_apply x0 x1 x2 b t k)

theorem v11_apply (b : Fin 8) (t : Fin 2048) :
    Read.val_main_v11 (F := Ideal) x0 x1 x2 (ix2 b t) = rowMax (score (proj x0 x2 b t) (proj x0 x1 b) t.val) := by
  rw [Read.val_main_v11_apply, Read.val_main_v10_apply, Read.val_main_cst_2_apply, Ideal.ofBits_def,
    Cert.Attn.ofBits_negInf, Ideal.maximumf_def, v9_apply]
  rfl

theorem v13_apply (b : Fin 8) (t k : Fin 2048) :
    Read.val_main_v13 (F := Ideal) x0 x1 x2 (ix3 b t k) = rowMax (score (proj x0 x2 b t) (proj x0 x1 b) t.val) := by
  have hi : Read.idx_main_v12 (Read.idx_main_v13 (ix3 b t k)) = ix2 b t :=
    funext fun a => Fin.ext (by match a with | ⟨0, _⟩ => rfl | ⟨1, _⟩ => rfl)
  rw [Read.val_main_v13_apply, Read.val_main_v12_apply, hi, v11_apply]

/-! ## The softmax weights and their normalisation -/

theorem v15_apply (b : Fin 8) (t k : Fin 2048) :
    Read.val_main_v15 (F := Ideal) x0 x1 x2 (ix3 b t k) = weight (score (proj x0 x2 b t) (proj x0 x1 b) t.val) k := by
  rw [Read.val_main_v15_apply, Read.val_main_v14_apply, v8_apply, v13_apply, Ideal.subf_def, Ideal.hostUnary_exp_def]
  rfl

theorem v16_apply (b : Fin 8) (t : Fin 2048) :
    Read.val_main_v16 (F := Ideal) x0 x1 x2 (ix2 b t)
      = ∑ j : Fin 2048, weight (score (proj x0 x2 b t) (proj x0 x1 b) t.val) j := by
  rw [Read.val_main_v16_apply, Read.val_main_cst_3_apply, Ideal.ofBits_def, Ideal.ofBits_zero_f32, zero_add]
  refine Finset.sum_congr rfl fun j _ => ?_
  have hi : Read.idx_main_v16 (ix2 b t) j = ix3 b t j :=
    funext fun a => Fin.ext (by match a with | ⟨0, _⟩ => rfl | ⟨1, _⟩ => rfl | ⟨2, _⟩ => rfl)
  rw [hi, v15_apply]

theorem v19_apply (b : Fin 8) (t k : Fin 2048) :
    Read.val_main_v19 (F := Ideal) x0 x1 x2 (ix3 b t k)
      = Ideal.div (weight (score (proj x0 x2 b t) (proj x0 x1 b) t.val) k)
          (∑ j : Fin 2048, weight (score (proj x0 x2 b t) (proj x0 x1 b) t.val) j) := by
  have hi : Read.idx_main_v17 (Read.idx_main_v18 (ix3 b t k)) = ix2 b t :=
    funext fun a => Fin.ext (by match a with | ⟨0, _⟩ => rfl | ⟨1, _⟩ => rfl)
  rw [Read.val_main_v19_apply, v15_apply, Read.val_main_v18_apply, Read.val_main_v17_apply, hi, v16_apply,
    Ideal.hostDivf_def]

/-! ## The result -/

/-- The reference's result, as a function of its four arguments, is causal attention of `x` under the key, query
    and value projections. -/
theorem result_eq :
    Read.val_main_v20 (F := Ideal) x0 x1 x2 x3 = Cert.Attn.attn x0 x1 x2 x3 := by
  funext i
  obtain ⟨b, t, h, rfl⟩ : ∃ (b : Fin 8) (t : Fin 2048) (h : Fin 64), i = ix3 b t h := ⟨i 0, i 1, i 2, eq_ix3 i⟩
  rw [Cert.Attn.attn_apply, Read.val_main_v20_apply]
  unfold Cert.Attn.row
  refine Finset.sum_congr rfl fun k _ => ?_
  have el : Read.lidx_main_v20 (ix3 b t h) k = ix3 b t k :=
    funext fun a => Fin.ext (by match a with | ⟨0, _⟩ => rfl | ⟨1, _⟩ => rfl | ⟨2, _⟩ => rfl)
  have er : Read.ridx_main_v20 (ix3 b t h) k = ix3 b k h :=
    funext fun a => Fin.ext (by match a with | ⟨0, _⟩ => rfl | ⟨1, _⟩ => rfl | ⟨2, _⟩ => rfl)
  rw [el, er, v19_apply, v2_apply]

/-! ## The run -/

/-- Every weakly fair execution of the reference ends with its result at causal attention of the four arguments'
    launch contents, and the arguments unchanged. -/
theorem run_attn (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v20)
          = Cert.Attn.attn (m' ((c.tc : Thread nD τ).loc main_arg0)) (m' ((c.tc : Thread nD τ).loc main_arg1))
              (m' ((c.tc : Thread nD τ).loc main_arg2)) (m' ((c.tc : Thread nD τ).loc main_arg3))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) :=
  (θ_run Cert.ReferenceIdeal.defs _ _).mono
    (fun _ h c => ⟨by rw [(h c).1, Read.val_main_v20_eq, result_eq], (h c).2⟩)
    (Cert.ReferenceIdeal.Value.run (F := Ideal) m' ρ')

end Cert.ReferenceIdeal.RefValue

end
-- ==== Proof.lean ====
/-
  Causal single-head attention: a Pallas program of two kernel calls against its plain jnp reference, equal over the
  extended reals.

  The kernel program lays the query, key and value weight matrices side by side, multiplies the flattened input by them in
  ONE projection call (512-row tiles, the matrix unit fed bf16), cuts the product into its query, key and value columns,
  and computes the attention in a second call, one 512-query tile of one batch per grid point against that batch's 2048
  keys and values: scores `q·kᵀ/8`, the causal mask filled with a large negative stand-in for `-∞`, a whole-row softmax,
  the product with the values. The reference makes the three projections separately, masks with `-∞` itself and applies
  jax's softmax. At the ideal instance a change of float format is the identity, the stand-in is NAMED `-∞`, and a matrix
  product is a plain finite sum, so both programs compute, entry by entry, the same function of the four argument arrays
  (`Cert.Attn.attn`: Proof/AttnSpec.lean), by the same operations in the same arrangement — no law of the extended reals
  beyond reindexing a finite sum is used, and the finiteness of the inputs is never opened.

  The modules: the two calls' bodies and proof data (Proof/ProjCall*, Proof/AttnCall*), the launch of @main's four items
  with every buffer's contents named at every boundary (Proof/TwoCalls*: both frames, and the result array), each call's
  result array as one function of the arrays it reads (Proof/ProjArray, Proof/AttnArray, over the bodies' stored values read
  at an index, Proof/AttnPayload), the host operations between the calls read at an index (Proof/HostGlue), their
  composition (Proof/KernelResult), and the reference's run read as the same function (Proof/RefAttn).
-/
import proofs.«164767_j85864986181949_1_alg».proof.Defs
import proofs.«164767_j85864986181949_1_alg».proof.Proof.Gen.Kernel
import proofs.«164767_j85864986181949_1_alg».proof.Proof.Gen.KernelIdeal
import proofs.«164767_j85864986181949_1_alg».proof.Proof.Gen.ReferenceIdeal
import proofs.«164767_j85864986181949_1_alg».proof.Proof.Gen.ReferenceIdeal.Run
import proofs.«164767_j85864986181949_1_alg».proof.Proof.Gen.ReferenceIdeal.Read
import proofs.«164767_j85864986181949_1_alg».proof.Proof.Gen.Pre_finite_inputs
import proofs.«164767_j85864986181949_1_alg».proof.Proof.TwoCallsBits
import proofs.«164767_j85864986181949_1_alg».proof.Proof.TwoCallsIdeal
import proofs.«164767_j85864986181949_1_alg».proof.Proof.KernelResult
import proofs.«164767_j85864986181949_1_alg».proof.Proof.AttnPayload
import proofs.«164767_j85864986181949_1_alg».proof.Proof.RefAttn
import Idealize.ShloMosaic.Adequacy
import Idealize.ShloMosaic.Init

noncomputable section

namespace Cert.Proof

open Idealize.ShloMosaic Idealize.ShloMosaic.TcCoe Idealize.SL.Sem

/-- The word-level program runs to the end, faults nowhere and leaves its four arguments as launched. -/
theorem frame_bits : Cert.frame_Kernel := fun m ρ _ => Cert.Kernel.TwoCalls.frame m ρ

/-- So does the idealized program. -/
theorem frame_ideal : Cert.frame_KernelIdeal := fun m ρ _ => Cert.KernelIdeal.TwoCalls.frame m ρ

/-- The reference is host operations only: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The one rewrite of the idealization: the mask's fill value `-1e30` is named, and the name denotes `-∞`. -/
theorem preserves : Cert.preserves_Kernel_KernelIdeal :=
  IdealRules.named_const.statement Cert.KernelIdeal.κ "neg_big" .f32 0xF149F2CA#32 ⊥ rfl

/-- Both idealized programs end with the result array at causal attention of the arguments. -/
theorem algebraic : Cert.algebraic_KernelIdeal_ReferenceIdeal := by
  intro m ρ m' ρ' _ hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.result_eq m c
          (fun x0 w r j => Cert.KernelIdeal.Payload.proj_pay_apply x0 w r j)
          (fun i q k v r h => Cert.KernelIdeal.Payload.attn_pay_apply i q k v r h)), (h c).2⟩)
      (Cert.KernelIdeal.TwoCalls.run_result m ρ)
  · refine (θ_run Cert.ReferenceIdeal.defs _ _).mono (fun r h c => ⟨?_, (h c).2⟩)
      (Cert.ReferenceIdeal.RefValue.run_attn m' ρ')
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
